-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x500 : Shape := ⟨2, ![50000, 500]⟩
abbrev S500x128 : Shape := ⟨2, ![500, 128]⟩
abbrev S128 : Shape := ⟨1, ![128]⟩
abbrev S128x47 : Shape := ⟨2, ![128, 47]⟩
abbrev S47 : Shape := ⟨1, ![47]⟩
abbrev S2x800000 : Shape := ⟨2, ![2, 800000]⟩
abbrev S_ : Shape := ⟨0, ![]⟩

class Facts : Prop where
  bcast_S_S50000x500 : S_.BroadcastsInDim S50000x500 (![] : Fin 0 → Fin S50000x500.rank)
  reducesTo_S50000x500_S_d0_1 : S50000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg4 : FVec F S47 .f32) (main_v13 : IVec S_ 1) (main_v16 : IVec S128x47 1) : IVec S_ 1 :=
  let main_c_5 : IVec S_ 1 := constantI S_ 1 1#1
  let main_v17 : IVec S_ 1 := (fun x v => Host.reduce IntOp.andi x v reducesTo_S128x47_S_d0_1 h_S_) main_v16 main_c_5
  let main_v18 : IVec S_ 1 := andi main_v13 main_v17
  let main_v19 : FVec F S47 .f32 := Host.absf main_arg4
  let main_cst_6 : FVec F S_ .f32 := constant S_ .f32 0x7F800000#32
  let main_v20 : FVec F S47 .f32 := broadcastInDim S47 ![] bcast_S_S47 main_cst_6
  let main_v21 : IVec S47 1 := cmpf .olt main_v19 main_v20
  let main_c_7 : IVec S_ 1 := constantI S_ 1 1#1
  let main_v22 : IVec S_ 1 := (fun x v => Host.reduce IntOp.andi x v reducesTo_S47_S_d0 h_S_) main_v21 main_c_7
  let main_v23 : IVec S_ 1 := andi main_v18 main_v22
  main_v23

def fn {F : FTy → Type} [FloatOps F] (main_arg0 : FVec F S50000x500 .f32) (main_arg1 : FVec F S500x128 .f32) (main_arg2 : FVec F S128 .f32) (main_arg3 : FVec F S128x47 .f32) (main_arg4 : FVec F S47 .f32) (main_arg5 : IVec S2x800000 32) : IVec S_ 1 :=
  let main_v0 : FVec F S50000x500 .f32 := Host.absf main_arg0
  let main_cst : FVec F S_ .f32 := constant S_ .f32 0x7F800000#32
  let main_v1 : FVec F S50000x500 .f32 := broadcastInDim S50000x500 ![] bcast_S_S50000x500 main_cst
  let main_v2 : IVec S50000x500 1 := cmpf .olt main_v0 main_v1
  let main_c : IVec S_ 1 := constantI S_ 1 1#1
  let main_v3 : IVec S_ 1 := (fun x v => Host.reduce IntOp.andi x v reducesTo_S50000x500_S_d0_1 h_S_) main_v2 main_c
  let main_v4 : FVec F S500x128 .f32 := Host.absf main_arg1
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x47 .f32 := Host.absf main_arg3
  let main_cst_4 : FVec F S_ .f32 := constant S_ .f32 0x7F800000#32
  let main_v15 : FVec F S128x47 .f32 := broadcastInDim S128x47 ![] bcast_S_S128x47 main_cst_4
  let main_v16 : IVec S128x47 1 := cmpf .olt main_v14 main_v15
  fn_part1 (F := F) main_arg4 main_v13 main_v16
-- ==== Kernel.lean ====
abbrev S50000x500 : Shape := ⟨2, ![50000, 500]⟩
abbrev S500x128 : Shape := ⟨2, ![500, 128]⟩
abbrev S128 : Shape := ⟨1, ![128]⟩
abbrev S128x47 : Shape := ⟨2, ![128, 47]⟩
abbrev S47 : Shape := ⟨1, ![47]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x500 : Shape := ⟨2, ![2000, 500]⟩
abbrev S2000x128 : Shape := ⟨2, ![2000, 128]⟩
abbrev S850000x128 : Shape := ⟨2, ![850000, 128]⟩
abbrev S1x128 : Shape := ⟨2, ![1, 128]⟩
abbrev S50000x47 : Shape := ⟨2, ![50000, 47]⟩
abbrev S5000x128 : Shape := ⟨2, ![5000, 128]⟩
abbrev S5000x47 : Shape := ⟨2, ![5000, 47]⟩
abbrev S850000x47 : Shape := ⟨2, ![850000, 47]⟩
abbrev S1x47 : Shape := ⟨2, ![1, 47]⟩
abbrev S5000 : Shape := ⟨1, ![5000]⟩
abbrev S5000x1 : Shape := ⟨2, ![5000, 1]⟩

abbrev nBuf : Space → Nat
  | .hbm => 91
  | .vmem => 15
  | .smem => 0
  | _ => 0

abbrev bufTy : (tb : Table) → Fin (tcTables nBuf tb) → BufTy
  | .hbm, ⟨0, _⟩ => ⟨S50000x500, .f32⟩
  | .hbm, ⟨1, _⟩ => ⟨S500x128, .f32⟩
  | .hbm, ⟨2, _⟩ => ⟨S128, .f32⟩
  | .hbm, ⟨3, _⟩ => ⟨S128x47, .f32⟩
  | .hbm, ⟨4, _⟩ => ⟨S47, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x47, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x47, .f32⟩
  | .hbm, ⟨82, _⟩ => ⟨S850000x1, .f32⟩
  | .hbm, ⟨83, _⟩ => ⟨S850000x47, .f32⟩
  | .hbm, ⟨84, _⟩ => ⟨S850000x47, .f32⟩
  | .hbm, ⟨85, _⟩ => ⟨S_, .f32⟩
  | .hbm, ⟨86, _⟩ => ⟨S50000x47, .f32⟩
  | .hbm, ⟨87, _⟩ => ⟨S850000x1, .i32⟩
  | .hbm, ⟨88, _⟩ => ⟨S50000x47, .f32⟩
  | .hbm, ⟨89, _⟩ => ⟨S1x47, .f32⟩
  | .hbm, ⟨90, _⟩ => ⟨S50000x47, .f32⟩
  | .local _ .vmem, ⟨0, _⟩ => ⟨S2000x500, .f32⟩
  | .local _ .vmem, ⟨1, _⟩ => ⟨S2000x500, .f32⟩
  | .local _ .vmem, ⟨2, _⟩ => ⟨S500x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S128x47, .f32⟩
  | .local _ .vmem, ⟨8, _⟩ => ⟨S5000x47, .f32⟩
  | .local _ .vmem, ⟨9, _⟩ => ⟨S5000x47, .f32⟩
  | .local _ .vmem, ⟨10, _⟩ => ⟨S5000x47, .f32⟩
  | .local _ .vmem, ⟨11, _⟩ => ⟨S5000x47, .f32⟩
  | .local _ .vmem, ⟨12, _⟩ => ⟨S1x47, .f32⟩
  | .local _ .vmem, ⟨13, _⟩ => ⟨S5000x47, .f32⟩
  | .local _ .vmem, ⟨14, _⟩ => ⟨S5000x47, .f32⟩
  | _, _ => ⟨S50000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x47 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x47 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x47 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x47 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x47 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x47_S128x47_0_0 : ∀ a, (![0, 0] : Fin 2 → Nat) a + S128x47.size a ≤ S128x47.size a
  h_S128x47 : 0 < S128x47.numel
  inb_S5000x47_S5000x47_0_0 : ∀ a, (![0, 0] : Fin 2 → Nat) a + S5000x47.size a ≤ S5000x47.size a
  h_S5000x47 : 0 < S5000x47.numel
  bcast_S850000x1_S850000x47_0_1 : S850000x1.BroadcastsInDim S850000x47 (![0, 1] : Fin 2 → Fin S850000x47.rank)
  bcast_S_S50000x47 : S_.BroadcastsInDim S50000x47 (![] : Fin 0 → Fin S50000x47.rank)
  shapeCasts_S47_S1x47 : S47.ShapeCasts S1x47
  shapeCasts_S5000x47_S5000x47 : S5000x47.ShapeCasts S5000x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  reduces_S5000x47_S5000 : S5000x47.Reduces [1] S5000
  shapeCasts_S5000_S5000x1 : S5000.ShapeCasts S5000x1
  broadcasts_S5000x1_S5000x47 : S5000x1.Broadcasts S5000x47
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x500_S500x128_S2000x128_1_0_0_1_n_n_wf : DotDims.WF S2000x500 S500x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x47_S5000x47_1_0_0_1_n_n_wf : DotDims.WF S5000x128 S128x47 S5000x47 [1] [0] [0] [1] [] []
  gather_S50000x47_S850000x1_S850000x47_1_0_n_n_0_1_147_wf : GatherDims.WF S50000x47 S850000x1 S850000x47 [1] [0] [] [0] [] 1 ![1, 47]
  scatter_S50000x47_S850000x1_S850000x47_1_0_0_1_wf : ScatterDims.WF S50000x47 S850000x1 S850000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S50000x500.size a
  hwx0_0 : ∀ i : grid0.Coords, EltTy.bits .f32 = 32 ∨ (Rect.block (s := S50000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x47.size a ≤ S128x47.size a
  hwx1_1 : ∀ i : grid1.Coords, EltTy.bits .f32 = 32 ∨ (Rect.block (s := S128x47) S128x47.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x47.size a ≤ S50000x47.size a
  hwx1_2 : ∀ i : grid1.Coords, EltTy.bits .f32 = 32 ∨ (Rect.block (s := S50000x47) S5000x47.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x47.size a ≤ S50000x47.size a
  hwx2_0 : ∀ i : grid2.Coords, EltTy.bits .f32 = 32 ∨ (Rect.block (s := S50000x47) S5000x47.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x47.size a ≤ S1x47.size a
  hwx2_1 : ∀ i : grid2.Coords, EltTy.bits .f32 = 32 ∨ (Rect.block (s := S1x47) S1x47.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x47.size a ≤ S50000x47.size a
  hwx2_2 : ∀ i : grid2.Coords, EltTy.bits .f32 = 32 ∨ (Rect.block (s := S50000x47) S5000x47.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x500_S500x128_S2000x128_1_0_0_1_n_n : DotDims S2000x500 S500x128 S2000x128 where
  lhsContracting := [1]
  rhsContracting := [0]
  lhsNonContracting := [0]
  rhsNonContracting := [1]
  lhsBatch := []
  rhsBatch := []
  wf := dot_S2000x500_S500x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf
def gather_S50000x47_S850000x1_S850000x47_1_0_n_n_0_1_147 : GatherDims S50000x47 S850000x1 S850000x47 where
  offsetDims := [1]
  collapsedSliceDims := [0]
  operandBatchingDims := []
  startIndicesBatchingDims := []
  startIndexMap := [0]
  indexVectorDim := 1
  sliceSizes := ![1, 47]
  wf := gather_S50000x47_S850000x1_S850000x47_1_0_n_n_0_1_147_wf
def scatter_S50000x47_S850000x1_S850000x47_1_0_0_1 : ScatterDims S50000x47 S850000x1 S850000x47 where
  updateWindowDims := [1]
  insertedWindowDims := [0]
  scatterDimsToOperandDims := [0]
  indexVectorDim := 1
  wf := scatter_S50000x47_S850000x1_S850000x47_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x47.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x47.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x47.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x47.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x47.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x500 : Shape := ⟨2, ![50000, 500]⟩
abbrev S500x128 : Shape := ⟨2, ![500, 128]⟩
abbrev S128 : Shape := ⟨1, ![128]⟩
abbrev S128x47 : Shape := ⟨2, ![128, 47]⟩
abbrev S47 : Shape := ⟨1, ![47]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x47 : Shape := ⟨2, ![50000, 47]⟩
abbrev S850000x47 : Shape := ⟨2, ![850000, 47]⟩
abbrev S1x47 : Shape := ⟨2, ![1, 47]⟩
abbrev S50000x1 : Shape := ⟨2, ![50000, 1]⟩

abbrev nBuf : Space → Nat
  | .hbm => 107
  | .vmem => 0
  | .smem => 0
  | _ => 0

abbrev bufTy : (tb : Table) → Fin (tcTables nBuf tb) → BufTy
  | .hbm, ⟨0, _⟩ => ⟨S50000x500, .f32⟩
  | .hbm, ⟨1, _⟩ => ⟨S500x128, .f32⟩
  | .hbm, ⟨2, _⟩ => ⟨S128, .f32⟩
  | .hbm, ⟨3, _⟩ => ⟨S128x47, .f32⟩
  | .hbm, ⟨4, _⟩ => ⟨S47, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x47, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x47, .f32⟩
  | .hbm, ⟨82, _⟩ => ⟨S850000x1, .f32⟩
  | .hbm, ⟨83, _⟩ => ⟨S850000x47, .f32⟩
  | .hbm, ⟨84, _⟩ => ⟨S850000x47, .f32⟩
  | .hbm, ⟨85, _⟩ => ⟨S_, .f32⟩
  | .hbm, ⟨86, _⟩ => ⟨S50000x47, .f32⟩
  | .hbm, ⟨87, _⟩ => ⟨S850000x1, .i32⟩
  | .hbm, ⟨88, _⟩ => ⟨S50000x47, .f32⟩
  | .hbm, ⟨89, _⟩ => ⟨S1x47, .f32⟩
  | .hbm, ⟨90, _⟩ => ⟨S50000x47, .f32⟩
  | .hbm, ⟨91, _⟩ => ⟨S50000x47, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x47, .f32⟩
  | .hbm, ⟨99, _⟩ => ⟨S50000x47, .f32⟩
  | .hbm, ⟨100, _⟩ => ⟨S50000x47, .f32⟩
  | .hbm, ⟨101, _⟩ => ⟨S_, .f32⟩
  | .hbm, ⟨102, _⟩ => ⟨S50000, .f32⟩
  | .hbm, ⟨103, _⟩ => ⟨S50000x1, .f32⟩
  | .hbm, ⟨104, _⟩ => ⟨S50000x1, .f32⟩
  | .hbm, ⟨105, _⟩ => ⟨S50000x47, .f32⟩
  | .hbm, ⟨106, _⟩ => ⟨S50000x47, .f32⟩
  | _, _ => ⟨S50000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x47_0_1 : S850000x1.BroadcastsInDim S850000x47 (![0, 1] : Fin 2 → Fin S850000x47.rank)
  bcast_S_S50000x47 : S_.BroadcastsInDim S50000x47 (![] : Fin 0 → Fin S50000x47.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  reducesTo_S50000x47_S50000_d1 : S50000x47.ReducesTo [1] S50000
  h_S_ : 0 < S_.numel
  bcast_S50000_S50000x1_0 : S50000.BroadcastsInDim S50000x1 (![0] : Fin 1 → Fin S50000x1.rank)
  bcast_S50000x1_S50000x47_0_1 : S50000x1.BroadcastsInDim S50000x47 (![0, 1] : Fin 2 → Fin S50000x47.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x500_S500x128_S50000x128_1_0_0_1_n_n_wf : DotDims.WF S50000x500 S500x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x47_S50000x47_1_0_0_1_n_n_wf : DotDims.WF S50000x128 S128x47 S50000x47 [1] [0] [0] [1] [] []
  gather_S50000x47_S850000x1_S850000x47_1_0_n_n_0_1_147_wf : GatherDims.WF S50000x47 S850000x1 S850000x47 [1] [0] [] [0] [] 1 ![1, 47]
  scatter_S50000x47_S850000x1_S850000x47_1_0_0_1_wf : ScatterDims.WF S50000x47 S850000x1 S850000x47 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x500_S500x128_S50000x128_1_0_0_1_n_n : DotDims S50000x500 S500x128 S50000x128 where
  lhsContracting := [1]
  rhsContracting := [0]
  lhsNonContracting := [0]
  rhsNonContracting := [1]
  lhsBatch := []
  rhsBatch := []
  wf := dot_S50000x500_S500x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf
def gather_S50000x47_S850000x1_S850000x47_1_0_n_n_0_1_147 : GatherDims S50000x47 S850000x1 S850000x47 where
  offsetDims := [1]
  collapsedSliceDims := [0]
  operandBatchingDims := []
  startIndicesBatchingDims := []
  startIndexMap := [0]
  indexVectorDim := 1
  sliceSizes := ![1, 47]
  wf := gather_S50000x47_S850000x1_S850000x47_1_0_n_n_0_1_147_wf
def scatter_S50000x47_S850000x1_S850000x47_1_0_0_1 : ScatterDims S50000x47 S850000x1 S850000x47 where
  updateWindowDims := [1]
  insertedWindowDims := [0]
  scatterDimsToOperandDims := [0]
  indexVectorDim := 1
  wf := scatter_S50000x47_S850000x1_S850000x47_1_0_0_1_wf

class Facts : Prop extends Facts₀ where

variable [Facts]
-- ==== Proof.KernelReads.lean ====
/-
  The idealized kernel's program, run to its end, leaves every buffer that outlives a region at a contents known
  by name: the launch memory pushed through the host stretches and the three pipelines in program order.  The
  statement is the run with an arbitrary property of the final memory, given that the property follows from
  those contents; every later module reads one buffer of the final memory through it.
-/
import proofs.«106828_j18176301597601_1_alg».proof.Proof.Gen.KernelIdeal.Frame

set_option maxRecDepth 16384

noncomputable section

namespace Cert.KernelIdeal.Reads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, faultless, in a memory whose buffers outside the regions'
    scopes hold the contents `W9` — the last boundary of the fold through the program — so any property `Q` that
    those contents imply holds of every final memory. -/
theorem run_reads {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- A buffer of the final memory named by a TensorCore reference outside every region's scope. -/
theorem read_of {s : MemSt nD τ sig (Elt F)}
    (h : ∀ c : Dev nD, ∀ b ∈ Pipeline.ucRefs τ sig, s.mem (((c : Thread nD τ)).1, b) = W9 m ρ c b)
    (c : Dev nD) (b : Ref sig .tc) (hb : ¬ (Proc.devRef .tc b : DevRef τ sig).isScoped) :
    s.mem (((c : Thread nD τ)).1, Proc.devRef .tc b) = W9 m ρ c (Proc.devRef .tc b) :=
  h c _ (mem_uc b hb)

end Cert.KernelIdeal.Reads

end
-- ==== Proof.HostSpec.lean ====
/-
  The graph-convolution glue that both programs apply in the same words, named once.  From the edge list
  e : i32[2, 800000] come the message sources and targets (a row of e followed by the self-loops 0 … 49999), the
  in-degree of every node counted over the targets, its inverse square root where positive, and the weight of
  every message, dinv[source] · dinv[target].  One convolution gathers the rows of a dense transform at the
  sources, scales each by its message's weight and adds it into the row of its target; the first layer then adds
  its bias and clips at zero.  These are functions of arrays, at any reading of the floats; nothing here is opened
  later: the two programs are compared by what they feed into these functions.
-/
import proofs.«106828_j18176301597601_1_alg».proof.Proof.Gen.KernelIdeal

noncomputable section

namespace Cert.Gcn

open Cert.KernelIdeal Cert.KernelIdeal.Facts₀ Cert.KernelIdeal.Facts Idealize.ShloMosaic Idealize.ShloMosaic.TcCoe

variable {F : FTy → Type} [FloatOps F]

/-- Message sources: row 0 of the edge list, then every node once. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Message targets: row 1 of the edge list, then every node once. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node index read the way the array library reads it: a negative one counts from the end. -/
def wrapIdx (s : (⟨S850000, .i32⟩ : BufTy).Contents (Elt F)) : (⟨S850000, .i32⟩ : BufTy).Contents (Elt F) :=
  select (cmpi .slt s (broadcastInDim S850000 ![] bcast_S_S850000 (constantI S_ 32 0#32))) (addi s (broadcastInDim S850000 ![] bcast_S_S850000 (constantI S_ 32 50000#32))) s

/-- In-degree with self-loops: one unit added at every message's target. -/
def degOf (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dstOf e)) (broadcastInDim S850000 ![] bcast_S_S850000 (constant S_ .f32 0x3F800000#32))

/-- deg^(-1/2) where the degree is positive (taken of max(deg, 1)), zero elsewhere. -/
def dinvOf (e : (⟨S2x800000, .i32⟩ : BufTy).Contents (Elt F)) : (⟨S50000, .f32⟩ : BufTy).Contents (Elt F) :=
  select (cmpf (F := F) .ogt (degOf e) (broadcastInDim S50000 ![] bcast_S_S50000 (constant S_ .f32 0x00000000#32))) (Host.rsqrt (maximumf (degOf e) (broadcastInDim S50000 ![] bcast_S_S50000 (constant S_ .f32 0x3F800000#32)))) (broadcastInDim S50000 ![] bcast_S_S50000 (id (constant S_ .f32 0x00000000#32)))

/-- The weight of each message: dinv at its source times dinv at its target. -/
def normOf (e : (⟨S2x800000, .i32⟩ : BufTy).Contents (Elt F)) : (⟨S850000, .f32⟩ : BufTy).Contents (Elt F) :=
  mulf (Host.gather gather_S50000_S850000x1_S850000_n_0_n_n_0_1_1 (dinvOf e) (broadcastInDim S850000x1 ![0] bcast_S850000_S850000x1_0 (wrapIdx (srcOf e)))) (Host.gather gather_S50000_S850000x1_S850000_n_0_n_n_0_1_1 (dinvOf e) (broadcastInDim S850000x1 ![0] bcast_S850000_S850000x1_0 (wrapIdx (dstOf e))))

/-- One propagation over 128 features: rows of `h` gathered at the sources `s`, each scaled by its message's
    weight `n`, added into the row of its target `d`. -/
def conv128 (s d : (⟨S850000, .i32⟩ : BufTy).Contents (Elt F)) (n : (⟨S850000, .f32⟩ : BufTy).Contents (Elt F))
    (h : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (broadcastInDim S850000x1 ![0] bcast_S850000_S850000x1_0 (wrapIdx s))) (broadcastInDim S850000x128 ![0, 1] bcast_S850000x1_S850000x128_0_1 (broadcastInDim S850000x1 ![0] bcast_S850000_S850000x1_0 n)))

/-- The first layer's bias added to every row, then clipped at zero. -/
def act128 (b : (⟨S128, .f32⟩ : BufTy).Contents (Elt F)) (z : (⟨S50000x128, .f32⟩ : BufTy).Contents (Elt F)) :
    (⟨S50000x128, .f32⟩ : BufTy).Contents (Elt F) :=
  maximumf (addf z (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The same propagation over 47 features. -/
def conv47 (s d : (⟨S850000, .i32⟩ : BufTy).Contents (Elt F)) (n : (⟨S850000, .f32⟩ : BufTy).Contents (Elt F))
    (h : (⟨S50000x47, .f32⟩ : BufTy).Contents (Elt F)) : (⟨S50000x47, .f32⟩ : BufTy).Contents (Elt F) :=
  Host.scatterAdd scatter_S50000x47_S850000x1_S850000x47_1_0_0_1 (broadcastInDim S50000x47 ![] bcast_S_S50000x47 (constant S_ .f32 0x00000000#32)) (broadcastInDim S850000x1 ![0] bcast_S850000_S850000x1_0 d) (mulf (Host.gather gather_S50000x47_S850000x1_S850000x47_1_0_n_n_0_1_147 h (broadcastInDim S850000x1 ![0] bcast_S850000_S850000x1_0 (wrapIdx s))) (broadcastInDim S850000x47 ![0, 1] bcast_S850000x1_S850000x47_0_1 (broadcastInDim S850000x1 ![0] bcast_S850000_S850000x1_0 n)))

end Cert.Gcn

end
-- ==== Proof.LibTypedRef.lean ====
/-
  A typed reference carries the type of the tensor value its buffer holds, and moves contents between that type and
  the buffer's own type along the equation between the two.  Moving contents there and back, in either order, is
  the identity.  Nothing here knows a program.
-/
import Idealize.ShloMosaic.Lib.StableHlo

noncomputable section

namespace Cert.TypedRef

open Idealize.ShloMosaic Idealize.ShloMosaic.StableHlo

variable {sig : RefSig} {Val : EltTy → Type} {T : BufTy}

/-- Contents taken to the buffer's own type and back are the contents. -/
theorem ofBuf_toBuf (x : TRef sig T) (v : T.Contents Val) : x.ofBuf (x.toBuf v) = v := by
  obtain ⟨r, h, h1, h2⟩ := x
  subst h
  rfl

/-- Contents of the buffer taken to the value's type and back are the contents. -/
theorem toBuf_ofBuf (x : TRef sig T) (v : x.ref.ty.Contents Val) : x.toBuf (x.ofBuf v) = v := by
  obtain ⟨r, h, h1, h2⟩ := x
  subst h
  rfl

end Cert.TypedRef

end
-- ==== Proof.Stretches.lean ====
/-
  The host stretches of the idealized kernel's program as functions of the contents they start from.  The buffer
  contents after a line of host operations are a fold through the line; read at one buffer, the fold is a composition
  of the operations' functions applied to the starting contents at the buffers the line reads.  The three stretches
  before the first pipeline turn the edge list into the message sources, targets and weights; the two between the
  first and the second pipeline make the hidden layer of the first product; the one before the third pipeline
  propagates the second product and lays the second bias out as one row.  A buffer that a stretch does not write
  keeps its contents.  All of this holds at any reading of the floats and from any starting contents.
-/
import proofs.«106828_j18176301597601_1_alg».proof.Proof.Gen.KernelIdeal.Frame
import proofs.«106828_j18176301597601_1_alg».proof.Proof.HostSpec
import proofs.«106828_j18176301597601_1_alg».proof.Proof.LibTypedRef

set_option maxRecDepth 16384

noncomputable section

namespace Cert.Gcn.Stretches

open Cert.KernelIdeal Cert.KernelIdeal.Gen Cert.KernelIdeal.Facts₀ Cert.KernelIdeal.Facts
open Idealize.ShloMosaic Idealize.ShloMosaic.TcCoe Idealize.SL.Sem Idealize.ShloMosaic.StableHlo
open Cert.Gcn

variable {F : FTy → Type} [FloatOps F] (U : Valuation τ sig (Elt F))

/-- Unfolds the literal host stretches, then reads the fold at one buffer. -/
local macro "read_host" : tactic =>
  `(tactic| (simp only [hostOps0, hostOps0_1, hostOps0_2, hostOps1, hostOps1_1, hostOps2]
             after_results_simp))

/-! ## Before the first pipeline -/

theorem pre_src : after hostOps0_2 (after hostOps0_1 (after hostOps0 U)) (Proc.devRef .tc main_v3) = srcOf (U (Proc.devRef .tc main_arg5)) := by
  read_host; rfl
theorem pre_dst : after hostOps0_2 (after hostOps0_1 (after hostOps0 U)) (Proc.devRef .tc main_v6) = dstOf (U (Proc.devRef .tc main_arg5)) := by
  read_host; rfl
theorem pre_nrm : after hostOps0_2 (after hostOps0_1 (after hostOps0 U)) (Proc.devRef .tc main_v31) = normOf (U (Proc.devRef .tc main_arg5)) := by
  read_host; rfl
theorem pre_a0 : after hostOps0_2 (after hostOps0_1 (after hostOps0 U)) (Proc.devRef .tc main_arg0) = U (Proc.devRef .tc main_arg0) := by
  read_host
theorem pre_a1 : after hostOps0_2 (after hostOps0_1 (after hostOps0 U)) (Proc.devRef .tc main_arg1) = U (Proc.devRef .tc main_arg1) := by
  read_host
theorem pre_a2 : after hostOps0_2 (after hostOps0_1 (after hostOps0 U)) (Proc.devRef .tc main_arg2) = U (Proc.devRef .tc main_arg2) := by
  read_host
theorem pre_a3 : after hostOps0_2 (after hostOps0_1 (after hostOps0 U)) (Proc.devRef .tc main_arg3) = U (Proc.devRef .tc main_arg3) := by
  read_host
theorem pre_a4 : after hostOps0_2 (after hostOps0_1 (after hostOps0 U)) (Proc.devRef .tc main_arg4) = U (Proc.devRef .tc main_arg4) := by
  read_host

/-! ## Between the first and the second pipeline -/

theorem mid_hidden : after hostOps1_1 (after hostOps1 U) (Proc.devRef .tc main_v49)
    = act128 (U (Proc.devRef .tc main_arg2)) (conv128 (U (Proc.devRef .tc main_v3)) (U (Proc.devRef .tc main_v6)) (U (Proc.devRef .tc main_v31)) (U (Proc.devRef .tc main_v32))) := by
  read_host; rfl
theorem mid_src : after hostOps1_1 (after hostOps1 U) (Proc.devRef .tc main_v3) = U (Proc.devRef .tc main_v3) := by
  read_host
theorem mid_dst : after hostOps1_1 (after hostOps1 U) (Proc.devRef .tc main_v6) = U (Proc.devRef .tc main_v6) := by
  read_host
theorem mid_nrm : after hostOps1_1 (after hostOps1 U) (Proc.devRef .tc main_v31) = U (Proc.devRef .tc main_v31) := by
  read_host
theorem mid_a3 : after hostOps1_1 (after hostOps1 U) (Proc.devRef .tc main_arg3) = U (Proc.devRef .tc main_arg3) := by
  read_host
theorem mid_a4 : after hostOps1_1 (after hostOps1 U) (Proc.devRef .tc main_arg4) = U (Proc.devRef .tc main_arg4) := by
  read_host

/-! ## Before the third pipeline -/

theorem post_conv : after hostOps2 U (Proc.devRef .tc main_v63)
    = conv47 (U (Proc.devRef .tc main_v3)) (U (Proc.devRef .tc main_v6)) (U (Proc.devRef .tc main_v31)) (U (Proc.devRef .tc main_v50)) := by
  read_host; rfl
theorem post_bias : after hostOps2 U (Proc.devRef .tc main_v64)
    = shapeCast S1x47 (U (Proc.devRef .tc main_arg4)) Facts₀.shapeCasts_S47_S1x47 := by
  read_host; rfl

end Cert.Gcn.Stretches

end
-- ==== Proof.RefSpec.lean ====
/-
  The reference's stages that the kernel does not share word for word, named: the two dense products, the second
  layer's bias added to every row, and the row-wise log-softmax in its shifted form — every row minus its maximum,
  minus the logarithm of the sum of the exponentials of the shifted row — and the reference as their composition
  with the shared graph-convolution glue (the two programs print that glue with the same operations and the same
  dimension records).
-/
import proofs.«106828_j18176301597601_1_alg».proof.Proof.HostSpec
import proofs.«106828_j18176301597601_1_alg».proof.Proof.Gen.ReferenceIdeal

noncomputable section

namespace Cert.GcnRef

open Cert.ReferenceIdeal Cert.ReferenceIdeal.Facts₀ Cert.ReferenceIdeal.Facts Idealize.ShloMosaic Idealize.ShloMosaic.TcCoe
open Idealize.SL.Sem

variable {F : FTy → Type} [FloatOps F]

/-- The first dense transform, x · W1. -/
def dot1 (x : (⟨S50000x500, .f32⟩ : BufTy).Contents (Elt F)) (w : (⟨S500x128, .f32⟩ : BufTy).Contents (Elt F)) :
    (⟨S50000x128, .f32⟩ : BufTy).Contents (Elt F) :=
  Host.dotGeneral dot_S50000x500_S500x128_S50000x128_1_0_0_1_n_n none x w

/-- The second dense transform, h · W2. -/
def dot2 (h : (⟨S50000x128, .f32⟩ : BufTy).Contents (Elt F)) (w : (⟨S128x47, .f32⟩ : BufTy).Contents (Elt F)) :
    (⟨S50000x47, .f32⟩ : BufTy).Contents (Elt F) :=
  Host.dotGeneral dot_S50000x128_S128x47_S50000x47_1_0_0_1_n_n none h w

/-- The second layer's bias added to every row. -/
def biasRows (b : (⟨S47, .f32⟩ : BufTy).Contents (Elt F)) (z : (⟨S50000x47, .f32⟩ : BufTy).Contents (Elt F)) :
    (⟨S50000x47, .f32⟩ : BufTy).Contents (Elt F) :=
  addf z (broadcastInDim S50000x47 ![0, 1] bcast_S1x47_S50000x47_0_1 (broadcastInDim S1x47 ![1] bcast_S47_S1x47_1 b))

/-- Every row's maximum, started from minus infinity (and joined with minus infinity once more, as printed). -/
def rowMax (z : (⟨S50000x47, .f32⟩ : BufTy).Contents (Elt F)) : (⟨S50000, .f32⟩ : BufTy).Contents (Elt F) :=
  maximumf (broadcastInDim S50000 ![] bcast_S_S50000 (constant S_ .f32 0xFF800000#32)) (Host.reduce FloatOps.maximumf z (constant S_ .f32 0xFF800000#32) reducesTo_S50000x47_S50000_d1 h_S_)

/-- Every row minus its maximum. -/
def shifted (z : (⟨S50000x47, .f32⟩ : BufTy).Contents (Elt F)) : (⟨S50000x47, .f32⟩ : BufTy).Contents (Elt F) :=
  subf z (broadcastInDim S50000x47 ![0, 1] bcast_S50000x1_S50000x47_0_1 (broadcastInDim S50000x1 ![0] bcast_S50000_S50000x1_0 (rowMax z)))

/-- The row-wise log-softmax: the shifted row minus the logarithm of the sum of its exponentials. -/
def logSoftmaxRows (z : (⟨S50000x47, .f32⟩ : BufTy).Contents (Elt F)) : (⟨S50000x47, .f32⟩ : BufTy).Contents (Elt F) :=
  subf (shifted z) (broadcastInDim S50000x47 ![0, 1] bcast_S50000x1_S50000x47_0_1 (Host.log (broadcastInDim S50000x1 ![0] bcast_S50000_S50000x1_0 (Host.reduceAdd (Host.exp (shifted z)) (constant S_ .f32 0x00000000#32) reducesTo_S50000x47_S50000_d1 h_S_))))

/-- The reference, whole: two graph convolutions, a relu between them, log-softmax at the end. -/
def refOut (x : (⟨S50000x500, .f32⟩ : BufTy).Contents (Elt F)) (w1 : (⟨S500x128, .f32⟩ : BufTy).Contents (Elt F))
    (b1 : (⟨S128, .f32⟩ : BufTy).Contents (Elt F)) (w2 : (⟨S128x47, .f32⟩ : BufTy).Contents (Elt F))
    (b2 : (⟨S47, .f32⟩ : BufTy).Contents (Elt F)) (e : (⟨S2x800000, .i32⟩ : BufTy).Contents (Elt F)) :
    (⟨S50000x47, .f32⟩ : BufTy).Contents (Elt F) :=
  logSoftmaxRows (biasRows b2 (Cert.Gcn.conv47 (Cert.Gcn.srcOf e) (Cert.Gcn.dstOf e) (Cert.Gcn.normOf e)
    (dot2 (Cert.Gcn.act128 b1 (Cert.Gcn.conv128 (Cert.Gcn.srcOf e) (Cert.Gcn.dstOf e) (Cert.Gcn.normOf e) (dot1 x w1))) w2)))

end Cert.GcnRef

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.DenseProducts.lean ====
/-
  A dense product over the extended reals is one finite sum per entry: (x · w)(p, u) = Σ_k x(p, k) · w(k, u).
  Four spellings of it occur: the two kernels' matrix products of a row block by the whole weight matrix into a
  zero accumulator (their operands typed at a narrower float format, which over the extended reals is only a
  label), and the reference's two general dot products of the whole arrays.  Each is read at an entry as that sum;
  so the reference's products ARE the sum as whole-array functions, and a kernel block's entry (p, u) is the sum
  along row p of the block.  Each dimension record enters through where it sends an output index and a
  contraction index: rows follow rows, columns follow columns, the one contracted coordinate runs along the left
  operand's columns and the right operand's rows.
-/
import proofs.«106828_j18176301597601_1_alg».proof.Proof.Gen.KernelIdeal.Skeleton
import proofs.«106828_j18176301597601_1_alg».proof.Proof.RefSpec
import proofs.«106828_j18176301597601_1_alg».proof.Proof.LibRowsProduct
import Idealize.ShloMosaic.Lib.Pipeline.Value

noncomputable section

open scoped BigOperators

namespace Cert.Gcn

open Idealize.ShloMosaic Idealize.ShloMosaic.ValueIdx

/-- The product of an a × K array by a K × b array, entry by entry. -/
def rowsTimes {a K b : ℕ} (x : FVec Ideal ⟨2, ![a, K]⟩ .f32) (w : FVec Ideal ⟨2, ![K, b]⟩ .f32) :
    FVec Ideal ⟨2, ![a, b]⟩ .f32 :=
  fun i => ∑ k : Fin K, x (ix2 (i 0) k) * w (ix2 k (i 1))

theorem rowsTimes_apply {a K b : ℕ} (x : FVec Ideal ⟨2, ![a, K]⟩ .f32) (w : FVec Ideal ⟨2, ![K, b]⟩ .f32)
    (p : Fin a) (u : Fin b) : rowsTimes x w (ix2 p u) = ∑ k : Fin K, x (ix2 p k) * w (ix2 k u) := rfl

section Kernels

open Cert.KernelIdeal Cert.KernelIdeal.Gen Cert.KernelIdeal.Facts₀ Cert.KernelIdeal.Facts

theorem dot_S2000x500_S500x128_S2000x128_1_0_0_1_n_n_l0 (j) (q : dot_S2000x500_S500x128_S2000x128_1_0_0_1_n_n.contr.Idx) : (dot_S2000x500_S500x128_S2000x128_1_0_0_1_n_n.lhsIdx j q 0).val = (j 0).val := by
  unfold DotDims.lhsIdx
  rw [dif_neg (show ¬(0 : Fin S2000x500.rank) ∈ dot_S2000x500_S500x128_S2000x128_1_0_0_1_n_n.lhsBatch by decide), dif_pos (show (0 : Fin S2000x500.rank) ∈ dot_S2000x500_S500x128_S2000x128_1_0_0_1_n_n.lhsNonContracting by decide)]
  rfl
theorem dot_S2000x500_S500x128_S2000x128_1_0_0_1_n_n_l1 (j) (q : dot_S2000x500_S500x128_S2000x128_1_0_0_1_n_n.contr.Idx) : (dot_S2000x500_S500x128_S2000x128_1_0_0_1_n_n.lhsIdx j q 1).val = (q ⟨0, by decide⟩).val :=
  dot_S2000x500_S500x128_S2000x128_1_0_0_1_n_n.lhsIdx_val_of_single rfl j q
theorem dot_S2000x500_S500x128_S2000x128_1_0_0_1_n_n_r0 (j) (q : dot_S2000x500_S500x128_S2000x128_1_0_0_1_n_n.contr.Idx) : (dot_S2000x500_S500x128_S2000x128_1_0_0_1_n_n.rhsIdx j q 0).val = (q ⟨0, by decide⟩).val :=
  dot_S2000x500_S500x128_S2000x128_1_0_0_1_n_n.rhsIdx_val_of_single rfl j q
theorem dot_S2000x500_S500x128_S2000x128_1_0_0_1_n_n_r1 (j) (q : dot_S2000x500_S500x128_S2000x128_1_0_0_1_n_n.contr.Idx) : (dot_S2000x500_S500x128_S2000x128_1_0_0_1_n_n.rhsIdx j q 1).val = (j 1).val := by
  unfold DotDims.rhsIdx
  rw [dif_neg (show ¬(1 : Fin S500x128.rank) ∈ dot_S2000x500_S500x128_S2000x128_1_0_0_1_n_n.rhsBatch by decide), dif_pos (show (1 : Fin S500x128.rank) ∈ dot_S2000x500_S500x128_S2000x128_1_0_0_1_n_n.rhsNonContracting by decide)]
  rfl

theorem dot_S5000x128_S128x47_S5000x47_1_0_0_1_n_n_l0 (j) (q : dot_S5000x128_S128x47_S5000x47_1_0_0_1_n_n.contr.Idx) : (dot_S5000x128_S128x47_S5000x47_1_0_0_1_n_n.lhsIdx j q 0).val = (j 0).val := by
  unfold DotDims.lhsIdx
  rw [dif_neg (show ¬(0 : Fin S5000x128.rank) ∈ dot_S5000x128_S128x47_S5000x47_1_0_0_1_n_n.lhsBatch by decide), dif_pos (show (0 : Fin S5000x128.rank) ∈ dot_S5000x128_S128x47_S5000x47_1_0_0_1_n_n.lhsNonContracting by decide)]
  rfl
theorem dot_S5000x128_S128x47_S5000x47_1_0_0_1_n_n_l1 (j) (q : dot_S5000x128_S128x47_S5000x47_1_0_0_1_n_n.contr.Idx) : (dot_S5000x128_S128x47_S5000x47_1_0_0_1_n_n.lhsIdx j q 1).val = (q ⟨0, by decide⟩).val :=
  dot_S5000x128_S128x47_S5000x47_1_0_0_1_n_n.lhsIdx_val_of_single rfl j q
theorem dot_S5000x128_S128x47_S5000x47_1_0_0_1_n_n_r0 (j) (q : dot_S5000x128_S128x47_S5000x47_1_0_0_1_n_n.contr.Idx) : (dot_S5000x128_S128x47_S5000x47_1_0_0_1_n_n.rhsIdx j q 0).val = (q ⟨0, by decide⟩).val :=
  dot_S5000x128_S128x47_S5000x47_1_0_0_1_n_n.rhsIdx_val_of_single rfl j q
theorem dot_S5000x128_S128x47_S5000x47_1_0_0_1_n_n_r1 (j) (q : dot_S5000x128_S128x47_S5000x47_1_0_0_1_n_n.contr.Idx) : (dot_S5000x128_S128x47_S5000x47_1_0_0_1_n_n.rhsIdx j q 1).val = (j 1).val := by
  unfold DotDims.rhsIdx
  rw [dif_neg (show ¬(1 : Fin S128x47.rank) ∈ dot_S5000x128_S128x47_S5000x47_1_0_0_1_n_n.rhsBatch by decide), dif_pos (show (1 : Fin S128x47.rank) ∈ dot_S5000x128_S128x47_S5000x47_1_0_0_1_n_n.rhsNonContracting by decide)]
  rfl

/-- The first kernel's block: entry (p, u) is the sum along row p of the 2000-row block of x against column u of W1. -/
theorem k0_pay1_apply (x0 : Vec Ideal S2000x500 .f32) (x1 : Vec Ideal S500x128 .f32) (p : Fin 2000) (u : Fin 128) :
    k0_pay1 (F := Ideal) x0 x1 (ix2 p u) = ∑ k : Fin 500, x0 (ix2 p k) * x1 (ix2 k u) := by
  unfold k0_pay1
  exact Cert.RowsProduct.matmul_zero_rows_apply dot_S2000x500_S500x128_S2000x128_1_0_0_1_n_n none rfl rfl
    dot_S2000x500_S500x128_S2000x128_1_0_0_1_n_n_l0 dot_S2000x500_S500x128_S2000x128_1_0_0_1_n_n_l1
    dot_S2000x500_S500x128_S2000x128_1_0_0_1_n_n_r0 dot_S2000x500_S500x128_S2000x128_1_0_0_1_n_n_r1 _ _ p u

/-- The second kernel's block: entry (p, u) is the sum along row p of the 5000-row block against column u of W2. -/
theorem k1_pay1_apply (x0 : Vec Ideal S5000x128 .f32) (x1 : Vec Ideal S128x47 .f32) (p : Fin 5000) (u : Fin 47) :
    k1_pay1 (F := Ideal) x0 x1 (ix2 p u) = ∑ k : Fin 128, x0 (ix2 p k) * x1 (ix2 k u) := by
  unfold k1_pay1
  rw [shapeCast_self]
  exact Cert.RowsProduct.matmul_zero_rows_apply dot_S5000x128_S128x47_S5000x47_1_0_0_1_n_n none rfl rfl
    dot_S5000x128_S128x47_S5000x47_1_0_0_1_n_n_l0 dot_S5000x128_S128x47_S5000x47_1_0_0_1_n_n_l1
    dot_S5000x128_S128x47_S5000x47_1_0_0_1_n_n_r0 dot_S5000x128_S128x47_S5000x47_1_0_0_1_n_n_r1 _ _ p u

end Kernels

section Reference

open Cert.ReferenceIdeal Cert.ReferenceIdeal.Facts₀ Cert.ReferenceIdeal.Facts

theorem dot_S50000x500_S500x128_S50000x128_1_0_0_1_n_n_l0 (j) (q : dot_S50000x500_S500x128_S50000x128_1_0_0_1_n_n.contr.Idx) : (dot_S50000x500_S500x128_S50000x128_1_0_0_1_n_n.lhsIdx j q 0).val = (j 0).val := by
  unfold DotDims.lhsIdx
  rw [dif_neg (show ¬(0 : Fin S50000x500.rank) ∈ dot_S50000x500_S500x128_S50000x128_1_0_0_1_n_n.lhsBatch by decide), dif_pos (show (0 : Fin S50000x500.rank) ∈ dot_S50000x500_S500x128_S50000x128_1_0_0_1_n_n.lhsNonContracting by decide)]
  rfl
theorem dot_S50000x500_S500x128_S50000x128_1_0_0_1_n_n_l1 (j) (q : dot_S50000x500_S500x128_S50000x128_1_0_0_1_n_n.contr.Idx) : (dot_S50000x500_S500x128_S50000x128_1_0_0_1_n_n.lhsIdx j q 1).val = (q ⟨0, by decide⟩).val :=
  dot_S50000x500_S500x128_S50000x128_1_0_0_1_n_n.lhsIdx_val_of_single rfl j q
theorem dot_S50000x500_S500x128_S50000x128_1_0_0_1_n_n_r0 (j) (q : dot_S50000x500_S500x128_S50000x128_1_0_0_1_n_n.contr.Idx) : (dot_S50000x500_S500x128_S50000x128_1_0_0_1_n_n.rhsIdx j q 0).val = (q ⟨0, by decide⟩).val :=
  dot_S50000x500_S500x128_S50000x128_1_0_0_1_n_n.rhsIdx_val_of_single rfl j q
theorem dot_S50000x500_S500x128_S50000x128_1_0_0_1_n_n_r1 (j) (q : dot_S50000x500_S500x128_S50000x128_1_0_0_1_n_n.contr.Idx) : (dot_S50000x500_S500x128_S50000x128_1_0_0_1_n_n.rhsIdx j q 1).val = (j 1).val := by
  unfold DotDims.rhsIdx
  rw [dif_neg (show ¬(1 : Fin S500x128.rank) ∈ dot_S50000x500_S500x128_S50000x128_1_0_0_1_n_n.rhsBatch by decide), dif_pos (show (1 : Fin S500x128.rank) ∈ dot_S50000x500_S500x128_S50000x128_1_0_0_1_n_n.rhsNonContracting by decide)]
  rfl

theorem dot_S50000x128_S128x47_S50000x47_1_0_0_1_n_n_l0 (j) (q : dot_S50000x128_S128x47_S50000x47_1_0_0_1_n_n.contr.Idx) : (dot_S50000x128_S128x47_S50000x47_1_0_0_1_n_n.lhsIdx j q 0).val = (j 0).val := by
  unfold DotDims.lhsIdx
  rw [dif_neg (show ¬(0 : Fin S50000x128.rank) ∈ dot_S50000x128_S128x47_S50000x47_1_0_0_1_n_n.lhsBatch by decide), dif_pos (show (0 : Fin S50000x128.rank) ∈ dot_S50000x128_S128x47_S50000x47_1_0_0_1_n_n.lhsNonContracting by decide)]
  rfl
theorem dot_S50000x128_S128x47_S50000x47_1_0_0_1_n_n_l1 (j) (q : dot_S50000x128_S128x47_S50000x47_1_0_0_1_n_n.contr.Idx) : (dot_S50000x128_S128x47_S50000x47_1_0_0_1_n_n.lhsIdx j q 1).val = (q ⟨0, by decide⟩).val :=
  dot_S50000x128_S128x47_S50000x47_1_0_0_1_n_n.lhsIdx_val_of_single rfl j q
theorem dot_S50000x128_S128x47_S50000x47_1_0_0_1_n_n_r0 (j) (q : dot_S50000x128_S128x47_S50000x47_1_0_0_1_n_n.contr.Idx) : (dot_S50000x128_S128x47_S50000x47_1_0_0_1_n_n.rhsIdx j q 0).val = (q ⟨0, by decide⟩).val :=
  dot_S50000x128_S128x47_S50000x47_1_0_0_1_n_n.rhsIdx_val_of_single rfl j q
theorem dot_S50000x128_S128x47_S50000x47_1_0_0_1_n_n_r1 (j) (q : dot_S50000x128_S128x47_S50000x47_1_0_0_1_n_n.contr.Idx) : (dot_S50000x128_S128x47_S50000x47_1_0_0_1_n_n.rhsIdx j q 1).val = (j 1).val := by
  unfold DotDims.rhsIdx
  rw [dif_neg (show ¬(1 : Fin S128x47.rank) ∈ dot_S50000x128_S128x47_S50000x47_1_0_0_1_n_n.rhsBatch by decide), dif_pos (show (1 : Fin S128x47.rank) ∈ dot_S50000x128_S128x47_S50000x47_1_0_0_1_n_n.rhsNonContracting by decide)]
  rfl

/-- The reference's first product is the sum, as a function of the whole arrays. -/
theorem dot1_eq (x : (⟨S50000x500, .f32⟩ : BufTy).Contents (Elt Ideal)) (w : (⟨S500x128, .f32⟩ : BufTy).Contents (Elt Ideal)) :
    Cert.GcnRef.dot1 (F := Ideal) x w = rowsTimes x w := by
  funext i
  obtain ⟨p, u, rfl⟩ : ∃ (p : Fin 50000) (u : Fin 128), i = ix2 p u := ⟨i 0, i 1, eq_ix2 i⟩
  unfold Cert.GcnRef.dot1
  simp only [Host.dotGeneral]
  exact Cert.RowsProduct.dotGeneral_rows_apply dot_S50000x500_S500x128_S50000x128_1_0_0_1_n_n none _ rfl rfl
    dot_S50000x500_S500x128_S50000x128_1_0_0_1_n_n_l0 dot_S50000x500_S500x128_S50000x128_1_0_0_1_n_n_l1
    dot_S50000x500_S500x128_S50000x128_1_0_0_1_n_n_r0 dot_S50000x500_S500x128_S50000x128_1_0_0_1_n_n_r1 x w p u

/-- The reference's second product is the sum, as a function of the whole arrays. -/
theorem dot2_eq (h : (⟨S50000x128, .f32⟩ : BufTy).Contents (Elt Ideal)) (w : (⟨S128x47, .f32⟩ : BufTy).Contents (Elt Ideal)) :
    Cert.GcnRef.dot2 (F := Ideal) h w = rowsTimes h w := by
  funext i
  obtain ⟨p, u, rfl⟩ : ∃ (p : Fin 50000) (u : Fin 47), i = ix2 p u := ⟨i 0, i 1, eq_ix2 i⟩
  unfold Cert.GcnRef.dot2
  simp only [Host.dotGeneral]
  exact Cert.RowsProduct.dotGeneral_rows_apply dot_S50000x128_S128x47_S50000x47_1_0_0_1_n_n none _ rfl rfl
    dot_S50000x128_S128x47_S50000x47_1_0_0_1_n_n_l0 dot_S50000x128_S128x47_S50000x47_1_0_0_1_n_n_l1
    dot_S50000x128_S128x47_S50000x47_1_0_0_1_n_n_r0 dot_S50000x128_S128x47_S50000x47_1_0_0_1_n_n_r1 h w p u

end Reference

end Cert.Gcn

end
-- ==== Proof.Region0.lean ====
/-
  Pipeline 0 multiplies 2000-row blocks of its first operand by the whole second operand.  Point t's block of the
  result is rows 2000·t … 2000·t + 1999 of the product of the WHOLE operands: an entry's sum runs along one row of the
  first operand and one column of the second, and the row lies in the block the point fetched.  The 25 blocks cover
  every row, so after the region the result array is the product of the two operand arrays as the region found
  them, whatever those contents are.
-/
import proofs.«106828_j18176301597601_1_alg».proof.Proof.Gen.KernelIdeal.Frame
import proofs.«106828_j18176301597601_1_alg».proof.Proof.DenseProducts
import Idealize.ShloMosaic.Lib.Pipeline.Value

set_option maxRecDepth 16384

noncomputable section

open scoped BigOperators

namespace Cert.Gcn.Region0

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first operand and the result move one block of rows per point, the
    second operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the operand arrays. -/
theorem flushed_eq (c : Dev nD) (t : Fin cfg0.N) :
    (dat0 (F := Ideal) V c).flushed 2 t
      = ((cfg0.win 2).blk t).view.read (Elt Ideal) (rowsTimes (V c main_arg0) (V c main_arg1)) := by
  show (cfg0.win 2).cut (grid0.coords t) ((dat0 V c).after 2 t) = _
  rw [after0_2]
  unfold out0_2
  rw [View.canon_unit_zero hz]
  simp only [View.ld_unit_zero (S := S2000x500) hz, View.ld_unit_zero (S := S500x128) hz]
  obtain ⟨e0, e1, e2, e3, e4, e5⟩ := idx_facts t
  funext y
  obtain ⟨p, u, rfl⟩ : ∃ (p : Fin 2000) (u : Fin 128), y = ix2 p u := ⟨y 0, y 1, eq_ix2 y⟩
  refine (k0_pay1_apply _ _ p u).trans ?_
  rw [View.read_apply]
  unfold rowsTimes
  beta_reduce
  refine Finset.sum_congr rfl fun k _ => ?_
  refine congrArg₂ (· * ·) ?_ ?_
  · show V c main_arg0 (((cfg0.win 0).blk t).view.emb (ix2 p k)) = V c main_arg0 _
    refine congrArg (V c main_arg0) (funext fun a => Fin.ext ?_)
    match a with
    | ⟨0, _⟩ =>
      show win0_0.index t (0 : Fin 2) * 2000 + 1 * p.val = win0_2.index t (0 : Fin 2) * 2000 + 1 * p.val
      rw [e0, e4]
    | ⟨1, _⟩ =>
      show win0_0.index t (1 : Fin 2) * 500 + 1 * k.val = k.val
      rw [e1]; omega
  · show V c main_arg1 (((cfg0.win 1).blk t).view.emb (ix2 k u)) = V c main_arg1 _
    refine congrArg (V c main_arg1) (funext fun a => Fin.ext ?_)
    match a with
    | ⟨0, _⟩ =>
      show win0_1.index t (0 : Fin 2) * 500 + 1 * k.val = k.val
      rw [e2]; omega
    | ⟨1, _⟩ =>
      show win0_1.index t (1 : Fin 2) * 128 + 1 * u.val = win0_2.index t (1 : Fin 2) * 128 + 1 * u.val
      rw [e3, e5]

/-- An index of the result array lies in point `t`'s block iff each coordinate lies in the block's range. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v32).slice (win0_2.rect t)).set ↔ _
  rw [View.set_slice_whole, Rect.mem_set_unit]
  exact Iff.rfl

/-- Row r of the result lies in the block of point r / 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, e4, e5⟩ := idx_facts ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, hlt⟩ (1 : Fin 2) * 128 ≤ (i 1).val
      ∧ (i 1).val < win0_2.index ⟨(i 0).val / 2000, hlt⟩ (1 : Fin 2) * 128 + 128
    rw [e5]; omega

/-- After the region the result array is the product of the operand arrays as the region found them. -/
theorem array_eq (c : Dev nD) :
    (dat0 (F := Ideal) V c).arrAt 2 cfg0.N = rowsTimes (V c main_arg0) (V c main_arg1) :=
  (dat0 V c).arrAt_eq_of_cover 2 (rowsTimes (V c main_arg0) (V c main_arg1)) (fun t _ => flushed_eq V c t) (cover)

end Cert.Gcn.Region0

end
-- ==== Proof.Region1.lean ====
/-
  Pipeline 1 multiplies 5000-row blocks of its first operand by the whole second operand.  Point t's block of the
  result is rows 5000·t … 5000·t + 4999 of the product of the WHOLE operands: an entry's sum runs along one row of the
  first operand and one column of the second, and the row lies in the block the point fetched.  The 10 blocks cover
  every row, so after the region the result array is the product of the two operand arrays as the region found
  them, whatever those contents are.
-/
import proofs.«106828_j18176301597601_1_alg».proof.Proof.Gen.KernelIdeal.Frame
import proofs.«106828_j18176301597601_1_alg».proof.Proof.DenseProducts
import Idealize.ShloMosaic.Lib.Pipeline.Value

set_option maxRecDepth 16384

noncomputable section

open scoped BigOperators

namespace Cert.Gcn.Region1

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first operand and the result move one block of rows per point, the
    second operand stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the operand arrays. -/
theorem flushed_eq (c : Dev nD) (t : Fin cfg1.N) :
    (dat1 (F := Ideal) V c).flushed 2 t
      = ((cfg1.win 2).blk t).view.read (Elt Ideal) (rowsTimes (V c main_v49) (V c main_arg3)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x47) hz]
  obtain ⟨e0, e1, e2, e3, e4, e5⟩ := idx_facts t
  funext y
  obtain ⟨p, u, rfl⟩ : ∃ (p : Fin 5000) (u : Fin 47), y = ix2 p u := ⟨y 0, y 1, eq_ix2 y⟩
  refine (k1_pay1_apply _ _ p u).trans ?_
  rw [View.read_apply]
  unfold rowsTimes
  beta_reduce
  refine Finset.sum_congr rfl fun k _ => ?_
  refine congrArg₂ (· * ·) ?_ ?_
  · show V c main_v49 (((cfg1.win 0).blk t).view.emb (ix2 p k)) = V c main_v49 _
    refine congrArg (V c main_v49) (funext fun a => Fin.ext ?_)
    match a with
    | ⟨0, _⟩ =>
      show win1_0.index t (0 : Fin 2) * 5000 + 1 * p.val = win1_2.index t (0 : Fin 2) * 5000 + 1 * p.val
      rw [e0, e4]
    | ⟨1, _⟩ =>
      show win1_0.index t (1 : Fin 2) * 128 + 1 * k.val = k.val
      rw [e1]; omega
  · show V c main_arg3 (((cfg1.win 1).blk t).view.emb (ix2 k u)) = V c main_arg3 _
    refine congrArg (V c main_arg3) (funext fun a => Fin.ext ?_)
    match a with
    | ⟨0, _⟩ =>
      show win1_1.index t (0 : Fin 2) * 128 + 1 * k.val = k.val
      rw [e2]; omega
    | ⟨1, _⟩ =>
      show win1_1.index t (1 : Fin 2) * 47 + 1 * u.val = win1_2.index t (1 : Fin 2) * 47 + 1 * u.val
      rw [e3, e5]

/-- An index of the result array lies in point `t`'s block iff each coordinate lies in the block's range. -/
theorem mem_blk (t : Fin cfg1.N) (i : S50000x47.Idx) :
    i ∈ ((cfg1.win 2).blk t).view.set ↔ ∀ a : Fin 2, win1_2.index t a * S5000x47.size a ≤ (i a).val
      ∧ (i a).val < win1_2.index t a * S5000x47.size a + S5000x47.size a := by
  show i ∈ ((View.whole main_v50).slice (win1_2.rect t)).set ↔ _
  rw [View.set_slice_whole, Rect.mem_set_unit]
  exact Iff.rfl

/-- Row r of the result lies in the block of point r / 5000. -/
theorem cover (i : S50000x47.Idx) :
    ∃ t : Fin cfg1.N, (cfg1.win 2).flush t = true ∧ i ∈ ((cfg1.win 2).blk t).view.set := by
  have hi0 : (i 0).val < 50000 := (i 0).isLt
  have hi1 : (i 1).val < 47 := (i 1).isLt
  have hN : cfg1.N = 10 := N_1
  have hlt : (i 0).val / 5000 < cfg1.N := by rw [hN]; omega
  obtain ⟨-, -, -, -, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, hlt⟩ (1 : Fin 2) * 47 ≤ (i 1).val
      ∧ (i 1).val < win1_2.index ⟨(i 0).val / 5000, hlt⟩ (1 : Fin 2) * 47 + 47
    rw [e5]; omega

/-- After the region the result array is the product of the operand arrays as the region found them. -/
theorem array_eq (c : Dev nD) :
    (dat1 (F := Ideal) V c).arrAt 2 cfg1.N = rowsTimes (V c main_v49) (V c main_arg3) :=
  (dat1 V c).arrAt_eq_of_cover 2 (rowsTimes (V c main_v49) (V c main_arg3)) (fun t _ => flushed_eq V c t) (cover)

end Cert.Gcn.Region1

end
-- ==== Proof.RowLogSoftmax.lean ====
/-
  The log-softmax of one row of extended reals, in the shifted form both programs compute: every entry minus the
  row's largest entry, minus the logarithm of the sum of the exponentials of the shifted entries.  The largest
  entry is the fold of max over the row from the bottom word of the 32-bit float format (minus infinity).
-/
import Idealize.ShloMosaic.PureOps.Ideal

noncomputable section

open scoped BigOperators

namespace Cert.Gcn

open Idealize.ShloMosaic

/-- The largest entry of a row, from minus infinity. -/
def rowTop {n : ℕ} (r : Fin n → EReal) : EReal :=
  (Finset.univ : Finset (Fin n)).fold max (Ideal.ofBits .f32 0xFF800000#32) r

/-- The log-softmax of the row `r` at position `u`. -/
def lsmRow {n : ℕ} (r : Fin n → EReal) (u : Fin n) : EReal :=
  (r u - rowTop r) - Ideal.log (∑ k : Fin n, Ideal.exp (r k - rowTop r))

end Cert.Gcn

end
-- ==== Proof.LibVecRead.lean ====
/-
  Vector operations of small literal shapes read at an index built from coordinates: a column made from a
  vector, a column broadcast over the lanes, a rectangular slice with offsets on both axes, a sum along the
  lanes as a finite sum, and the mask "row index equals lane index".  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.VecRead

open Idealize.ShloMosaic Idealize.ShloMosaic.ValueIdx

variable {α : Type}

/-- A vector of length `a` viewed as an `a × 1` column reads, at `(r, 0)`, the vector at `r`. -/
theorem shapeCast_col_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_one, Shape.rowMajor_val_two]
    show r.val = r.val * 1 + z.val
    omega)

/-- An `a × 1` column broadcast to `a × b` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rectangular slice with unit strides reads, at `(r, c)`, the operand at `(o₀ + r, o₁ + c)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) (r' : Fin n0) (c' : Fin n1)
    (hr : r'.val = o0 + r.val) (hc : c'.val = o1 + c.val) :
    extractStridedSlice ⟨2, ![m0, m1]⟩ ![o0, o1] X h (ix2 r c) = X (ix2 r' c') :=
  extractStridedSlice_apply _ X h _ _ fun ax => match ax with
    | ⟨0, _⟩ => hr
    | ⟨1, _⟩ => hc

/-- At the extended reals a sum along the lanes of an `a × b` array, from the zero word, is at row `r` the finite sum
    of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun d => Fin.ext ?_)
  match d with
  | ⟨0, _⟩ => rfl
  | ⟨1, _⟩ => rfl

/-- The mask "row index = lane index" of an `n × n` tile, `n` below `2^32`. -/
theorem eyeMask_apply {n : ℕ} (hn : n ≤ 4294967296) (h0 : (⟨2, ![n, n]⟩ : Shape).Iotas .tc 32 [0]) (h1 : (⟨2, ![n, n]⟩ : Shape).Iotas .tc 32 [1])
    (r c : Fin n) :
    cmpi .eq (iota .tc ⟨2, ![n, n]⟩ 32 [0] h0) (iota .tc ⟨2, ![n, n]⟩ 32 [1] h1) (ix2 r c) = if r = c then 1#1 else 0#1 := by
  show IntOp.cmpi .eq (iota .tc ⟨2, ![n, n]⟩ 32 [0] h0 (ix2 r c)) (iota .tc ⟨2, ![n, n]⟩ 32 [1] h1 (ix2 r c)) = _
  rw [iota_single_apply, iota_single_apply]
  show BitVec.ofBool (BitVec.ofNat 32 r.val == BitVec.ofNat 32 c.val) = _
  have hr := r.isLt
  have hc := c.isLt
  by_cases e : r = c
  · subst e; simp
  · have : r.val ≠ c.val := fun hv => e (Fin.ext hv)
    have hne : BitVec.ofNat 32 r.val ≠ BitVec.ofNat 32 c.val := by
      intro hv
      have := congrArg BitVec.toNat hv
      simp only [BitVec.toNat_ofNat] at this
      rw [Nat.mod_eq_of_lt (by omega), Nat.mod_eq_of_lt (by omega)] at this
      exact ‹r.val ≠ c.val› this
    rw [if_neg e, beq_eq_false_iff_ne.mpr hne]
    rfl

/-- A select under that mask against the zero word, summed along the lanes, keeps the diagonal entry: every other
    term of the sum is zero. -/
theorem sum_eye_select {n : ℕ} (f : Fin n → EReal) (r : Fin n) :
    (∑ k : Fin n, Scalar.select (if r = k then 1#1 else 0#1) (f k) (0 : EReal)) = f r := by
  have : ∀ k : Fin n, Scalar.select (if r = k then 1#1 else 0#1) (f k) (0 : EReal) = if r = k then f k else 0 := by
    intro k; by_cases e : r = k <;> simp [e, Scalar.select]
  simp only [this, Finset.sum_ite_eq, Finset.mem_univ, if_true]

end Cert.VecRead

end
-- ==== Proof.LibRowMax.lean ====
/-
  A maximum along the last axis read at an index built from coordinates, at the extended reals: the lane
  maximum of an `a × b` array from the bottom word, and a host reduction with a maximum body over the last axis
  of an `a × b × c` array.  Both are the fold of `max`, from the starting value, over the reduced axis's
  coordinates, in any order.  Nothing here knows a program.
-/
import Idealize.ShloMosaic.Lib.ValueIdx
import Idealize.ShloMosaic.PureOps.Ideal.Laws

noncomputable section

namespace Cert.RowMax

open Idealize.ShloMosaic Idealize.ShloMosaic.ValueIdx

/-- At the extended reals a maximum along the lanes of an `a × b` array, from the word `0xFF800000`, is at row `r`
    the fold of `max` over the row's entries. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec FTy.f32.bits) = FKind.maximumf.neutral .f32 hφ) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) := by
  refine (Ideal.multiReduction_maximumf_single src 0xFF800000#32 h hφ hacc (ix1 r)).trans ?_
  show (Finset.univ : Finset (Fin b)).fold max (Ideal.ofBits .f32 0xFF800000#32) (fun k => src (h.lift (ix1 r) k)) = _
  refine congrArg (fun f => Finset.fold max (Ideal.ofBits .f32 0xFF800000#32) f (Finset.univ : Finset (Fin b)))
    (funext fun k => congrArg src (funext fun d => Fin.ext ?_))
  match d with
  | ⟨0, _⟩ => rfl
  | ⟨1, _⟩ => rfl

/-- At the extended reals a host reduction with a maximum body over the last axis of an `a × b × c` array is, at
    `(p, q)`, the fold of `max` from the initial value over the entries `(p, q, ·)`. -/
theorem hostMax3_apply {a b c : ℕ} {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  show (Finset.univ : Finset (Fin c)).fold max (init (Shape.Idx.first hu)) (fun k => x (h.lift (ix2 p q) k)) = _
  refine congrArg (fun f => Finset.fold max (init (Shape.Idx.first hu)) f (Finset.univ : Finset (Fin c)))
    (funext fun k => congrArg x (funext fun d => Fin.ext ?_))
  match d with
  | ⟨0, _⟩ => rfl
  | ⟨1, _⟩ => rfl
  | ⟨2, _⟩ => rfl

end Cert.RowMax

end
-- ==== Proof.RowsKernel.lean ====
/-
  The last kernel's payload read at one entry.  The payload adds the bias row to every row of its block, takes
  every row's largest entry from the bottom word, subtracts it, and subtracts the logarithm of the sum of the
  exponentials of the shifted row.  Read at row `p`, lane `u` it is the log-softmax of the biased row `p` at `u`:
  a column made from a vector and broadcast over the lanes reads the vector at the row, a lane maximum is the
  fold of `max` over the row, a lane sum from the zero word is the finite sum over the row.
-/
import proofs.«106828_j18176301597601_1_alg».proof.Proof.Gen.KernelIdeal.Skeleton
import proofs.«106828_j18176301597601_1_alg».proof.Proof.RowLogSoftmax
import proofs.«106828_j18176301597601_1_alg».proof.Proof.LibVecRead
import proofs.«106828_j18176301597601_1_alg».proof.Proof.LibRowMax
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn

open Cert.KernelIdeal Cert.KernelIdeal.Gen Cert.KernelIdeal.Facts₀ Cert.KernelIdeal.Facts Idealize.ShloMosaic
open Idealize.ShloMosaic.ValueIdx

/-- The block plus the bias row broadcast over the rows reads, at `(p, k)`, the block's entry plus the bias at `k`:
    a shape cast of a shape to itself is the identity and a one-row array broadcast over the rows reads its row. -/
theorem biased_apply {a b : ℕ} (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (k : Fin b) :
    addf (shapeCast ⟨2, ![a, b]⟩ x0 h0) (broadcastTo ⟨2, ![a, b]⟩ (shapeCast ⟨2, ![1, b]⟩ x1 h1) hb) (ix2 p k)
      = x0 (ix2 p k) + x1 (ix2 (0 : Fin 1) k) := by
  rw [shapeCast_self, shapeCast_self]
  exact congrArg (x0 (ix2 p k) + ·) (broadcastTo_1b_ab_apply x1 hb p k)

/-- The lane maximum from the bottom word, made a column and broadcast over the lanes, reads at `(p, c)` the largest
    entry of row `p`. -/
theorem topCol_apply {a b : ℕ} (z : FVec Ideal ⟨2, ![a, b]⟩ .f32) (hr : (⟨2, ![a, b]⟩ : Shape).Reduces [1] ⟨1, ![a]⟩)
    (hφ : FKind.Formats .f32) (hacc : (0xFF800000#32 : BitVec FTy.f32.bits) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ (multiReduction .maximumf [1] ⟨1, ![a]⟩ z 0xFF800000#32 hr hφ hacc) hc) hb
        (ix2 p c)
      = rowTop (fun k : Fin b => z (ix2 p k)) :=
  (Cert.VecRead.broadcastTo_col_apply _ hb p c).trans
    ((Cert.VecRead.shapeCast_col_apply _ hc p (0 : Fin 1)).trans (Cert.RowMax.laneMax_apply z hr hφ hacc p))

/-- The logarithm of the lane sum from the zero word, the sum made a column first and the logarithm broadcast over
    the lanes, reads at `(p, c)` the logarithm of the finite sum of row `p`. -/
theorem logSumCol_apply {a b : ℕ} (e : FVec Ideal ⟨2, ![a, b]⟩ .f32) (hr : (⟨2, ![a, b]⟩ : Shape).Reduces [1] ⟨1, ![a]⟩)
    (hφ : FKind.Formats .f32) (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (log (shapeCast ⟨2, ![a, 1]⟩ (multiReduction .add [1] ⟨1, ![a]⟩ e 0x00000000#32 hr hφ hacc) hc)) hb
        (ix2 p c)
      = Ideal.log (∑ k : Fin b, e (ix2 p k)) :=
  (Cert.VecRead.broadcastTo_col_apply _ hb p c).trans
    (congrArg Ideal.log ((Cert.VecRead.shapeCast_col_apply _ hc p (0 : Fin 1)).trans (Cert.VecRead.laneSum_apply e hr hφ hacc p)))

/-- The shifted log-softmax of an `a × b` array as the payload computes it — every entry minus its row's largest
    entry, minus the logarithm of the lane sum of the exponentials of the shifted entries — reads, at `(p, u)`, the
    log-softmax of row `p` at `u`. -/
theorem lsm_apply {a b : ℕ} (z : FVec Ideal ⟨2, ![a, b]⟩ .f32) (hr : (⟨2, ![a, b]⟩ : Shape).Reduces [1] ⟨1, ![a]⟩)
    (hφ : FKind.Formats .f32) (hmax : (0xFF800000#32 : BitVec FTy.f32.bits) = FKind.maximumf.neutral .f32 hφ)
    (hadd : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (u : Fin b) :
    subf
        (subf z (broadcastTo ⟨2, ![a, b]⟩
          (shapeCast ⟨2, ![a, 1]⟩ (multiReduction .maximumf [1] ⟨1, ![a]⟩ z 0xFF800000#32 hr hφ hmax) hc) hb))
        (broadcastTo ⟨2, ![a, b]⟩ (log (shapeCast ⟨2, ![a, 1]⟩ (multiReduction .add [1] ⟨1, ![a]⟩
          (exp (subf z (broadcastTo ⟨2, ![a, b]⟩
            (shapeCast ⟨2, ![a, 1]⟩ (multiReduction .maximumf [1] ⟨1, ![a]⟩ z 0xFF800000#32 hr hφ hmax) hc) hb)))
          0x00000000#32 hr hφ hadd) hc)) hb)
        (ix2 p u)
      = lsmRow (fun k : Fin b => z (ix2 p k)) u := by
  have hM := fun c : Fin b => topCol_apply z hr hφ hmax hc hb p c
  refine congrArg₂ (fun s t : EReal => s - t) (congrArg (fun t : EReal => z (ix2 p u) - t) (hM u))
    ((logSumCol_apply _ hr hφ hadd hc hb p u).trans (congrArg Ideal.log (Finset.sum_congr rfl fun k _ => ?_)))
  exact congrArg (fun t : EReal => Ideal.exp (z (ix2 p k) - t)) (hM k)

/-- The last kernel's payload at row `p`, lane `u`: the log-softmax, at `u`, of row `p` of the block plus the bias. -/
theorem kernel_rows_apply (x0 : Vec Ideal S5000x47 .f32) (x1 : Vec Ideal S1x47 .f32) (p : Fin 5000) (u : Fin 47) :
    k2_pay1 (F := Ideal) x0 x1 (ix2 p u) = lsmRow (fun k : Fin 47 => x0 (ix2 p k) + x1 (ix2 (0 : Fin 1) k)) u := by
  unfold k2_pay1
  refine (lsm_apply _ _ _ _ _ _ _ p u).trans ?_
  exact congrArg (fun r : Fin 47 → EReal => lsmRow r u) (funext fun k => biased_apply x0 x1 _ _ _ p k)

end Cert.Gcn

end
-- ==== Proof.RowsSpec.lean ====
/-
  The row-wise log-softmax with a bias row, as one function of whole arrays: entry (p, u) of the result is the
  log-softmax, at u, of row p of the operand with the bias row added.
-/
import proofs.«106828_j18176301597601_1_alg».proof.Proof.RowLogSoftmax
import Idealize.ShloMosaic.Lib.ValueIdx

noncomputable section

namespace Cert.Gcn

open Idealize.ShloMosaic Idealize.ShloMosaic.ValueIdx

/-- Every row of `z`, with the one-row array `r` added, through the log-softmax. -/
def rowsLogSoftmax {a b : ℕ} (z : FVec Ideal ⟨2, ![a, b]⟩ .f32) (r : FVec Ideal ⟨2, ![1, b]⟩ .f32) :
    FVec Ideal ⟨2, ![a, b]⟩ .f32 :=
  fun i => lsmRow (fun k : Fin b => z (ix2 (i 0) k) + r (ix2 (0 : Fin 1) k)) (i 1)

theorem rowsLogSoftmax_apply {a b : ℕ} (z : FVec Ideal ⟨2, ![a, b]⟩ .f32) (r : FVec Ideal ⟨2, ![1, b]⟩ .f32)
    (p : Fin a) (u : Fin b) :
    rowsLogSoftmax z r (ix2 p u) = lsmRow (fun k : Fin b => z (ix2 p k) + r (ix2 (0 : Fin 1) k)) u := rfl

end Cert.Gcn

end
-- ==== Proof.Region2.lean ====
/-
  Pipeline 2 adds the bias row to 5000-row blocks of its first operand and takes every row through the
  log-softmax.  A row's result depends on that row and the bias only, and the row lies in the block the point
  fetched, so point t's block of the result is rows 5000·t … 5000·t + 4999 of the row-wise function of the WHOLE
  operand.  The ten blocks cover every row, so after the region the result array is the row-wise log-softmax,
  with the bias row, of the operand arrays as the region found them.
-/
import proofs.«106828_j18176301597601_1_alg».proof.Proof.Gen.KernelIdeal.Frame
import proofs.«106828_j18176301597601_1_alg».proof.Proof.RowsKernel
import proofs.«106828_j18176301597601_1_alg».proof.Proof.RowsSpec
import Idealize.ShloMosaic.Lib.Pipeline.Value

set_option maxRecDepth 16384

noncomputable section

open scoped BigOperators

namespace Cert.Gcn.Region2

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first operand and the result move one block of rows per point, the
    bias row stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the row-wise function of the operand arrays. -/
theorem flushed_eq (c : Dev nD) (t : Fin cfg2.N) :
    (dat2 (F := Ideal) V c).flushed 2 t
      = ((cfg2.win 2).blk t).view.read (Elt Ideal) (rowsLogSoftmax (V c main_v63) (V c main_v64)) := by
  show (cfg2.win 2).cut (grid2.coords t) ((dat2 V c).after 2 t) = _
  rw [after2_2]
  unfold out2_2
  rw [View.canon_unit_zero hz]
  simp only [View.ld_unit_zero (S := S5000x47) hz, View.ld_unit_zero (S := S1x47) hz]
  obtain ⟨e0, e1, e2, e3, e4, e5⟩ := idx_facts t
  funext y
  obtain ⟨p, u, rfl⟩ : ∃ (p : Fin 5000) (u : Fin 47), y = ix2 p u := ⟨y 0, y 1, eq_ix2 y⟩
  refine (kernel_rows_apply _ _ p u).trans ?_
  show _ = rowsLogSoftmax (V c main_v63) (V c main_v64) (((cfg2.win 2).blk t).view.emb (ix2 p u))
  have hN : cfg2.N = 10 := N_2
  have ht : t.val < 10 := lt_of_lt_of_eq t.isLt hN
  have hp : t.val * 5000 + p.val < 50000 := by omega
  have hemb : ((cfg2.win 2).blk t).view.emb (ix2 p u) = (ix2 (⟨t.val * 5000 + p.val, hp⟩ : Fin 50000) u : S50000x47.Idx) := by
    funext a; apply Fin.ext
    match a with
    | ⟨0, _⟩ =>
      show win2_2.index t (0 : Fin 2) * 5000 + 1 * p.val = t.val * 5000 + p.val
      rw [e4]; omega
    | ⟨1, _⟩ =>
      show win2_2.index t (1 : Fin 2) * 47 + 1 * u.val = u.val
      rw [e5]; omega
  rw [hemb, rowsLogSoftmax_apply]
  refine congrArg (fun r : Fin 47 → EReal => lsmRow r u) (funext fun k => ?_)
  have h1 : (iblk2 V c 0 t : Vec Ideal S5000x47 .f32) (ix2 p k)
      = (V c main_v63 : S50000x47.Idx → EReal) (ix2 (⟨t.val * 5000 + p.val, hp⟩ : Fin 50000) k) := by
    show V c main_v63 (((cfg2.win 0).blk t).view.emb (ix2 p k)) = V c main_v63 _
    refine congrArg (V c main_v63) (funext fun a => Fin.ext ?_)
    match a with
    | ⟨0, _⟩ =>
      show win2_0.index t (0 : Fin 2) * 5000 + 1 * p.val = t.val * 5000 + p.val
      rw [e0]; omega
    | ⟨1, _⟩ =>
      show win2_0.index t (1 : Fin 2) * 47 + 1 * k.val = k.val
      rw [e1]; omega
  have h2 : (iblk2 V c 1 t : Vec Ideal S1x47 .f32) (ix2 (0 : Fin 1) k)
      = (V c main_v64 : S1x47.Idx → EReal) (ix2 (0 : Fin 1) k) := by
    show V c main_v64 (((cfg2.win 1).blk t).view.emb (ix2 (0 : Fin 1) k)) = V c main_v64 _
    refine congrArg (V c main_v64) (funext fun a => Fin.ext ?_)
    match a with
    | ⟨0, _⟩ =>
      show win2_1.index t (0 : Fin 2) * 1 + 1 * 0 = 0
      rw [e2]
    | ⟨1, _⟩ =>
      show win2_1.index t (1 : Fin 2) * 47 + 1 * k.val = k.val
      rw [e3]; omega
  exact congrArg₂ (fun a b : EReal => a + b) h1 h2

/-- An index of the result array lies in point `t`'s block iff each coordinate lies in the block's range. -/
theorem mem_blk (t : Fin cfg2.N) (i : S50000x47.Idx) :
    i ∈ ((cfg2.win 2).blk t).view.set ↔ ∀ a : Fin 2, win2_2.index t a * S5000x47.size a ≤ (i a).val
      ∧ (i a).val < win2_2.index t a * S5000x47.size a + S5000x47.size a := by
  show i ∈ ((View.whole main_v65).slice (win2_2.rect t)).set ↔ _
  rw [View.set_slice_whole, Rect.mem_set_unit]
  exact Iff.rfl

/-- Row r of the result lies in the block of point r / 5000. -/
theorem cover (i : S50000x47.Idx) :
    ∃ t : Fin cfg2.N, (cfg2.win 2).flush t = true ∧ i ∈ ((cfg2.win 2).blk t).view.set := by
  have hi0 : (i 0).val < 50000 := (i 0).isLt
  have hi1 : (i 1).val < 47 := (i 1).isLt
  have hN : cfg2.N = 10 := N_2
  have hlt : (i 0).val / 5000 < cfg2.N := by rw [hN]; omega
  obtain ⟨-, -, -, -, e4, e5⟩ := idx_facts ⟨(i 0).val / 5000, hlt⟩
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, hlt⟩ (1 : Fin 2) * 47 ≤ (i 1).val
      ∧ (i 1).val < win2_2.index ⟨(i 0).val / 5000, hlt⟩ (1 : Fin 2) * 47 + 47
    rw [e5]; omega

/-- After the region the result array is the row-wise log-softmax, with the bias row, of the operand arrays as
    the region found them. -/
theorem array_eq (c : Dev nD) :
    (dat2 (F := Ideal) V c).arrAt 2 cfg2.N = rowsLogSoftmax (V c main_v63) (V c main_v64) :=
  (dat2 V c).arrAt_eq_of_cover 2 (rowsLogSoftmax (V c main_v63) (V c main_v64)) (fun t _ => flushed_eq V c t) (cover)

end Cert.Gcn.Region2

end
-- ==== Proof.KernelWalk.lean ====
/-
  The idealized kernel's program, boundary by boundary, over the extended reals.  Between the launch and the return
  the buffer contents pass nine boundaries: host stretches, which are folds through their operations, and three
  pipelines, each of which leaves its result array at what its write-backs cover and every other buffer as it
  found it.  At the first pipeline's entry the message sources, targets and weights are the named functions of
  the edge list; the first pipeline leaves x · W1; the next stretches make the hidden layer of it; the second
  pipeline leaves (hidden layer) · W2; the last stretch propagates it and lays the second bias out as one row; the
  third pipeline leaves the row-wise log-softmax with that bias.  The float arguments are never written.  So the
  program ends with its result at one named composition of the arguments.
-/
import proofs.«106828_j18176301597601_1_alg».proof.Proof.KernelReads
import proofs.«106828_j18176301597601_1_alg».proof.Proof.Stretches
import proofs.«106828_j18176301597601_1_alg».proof.Proof.Region0
import proofs.«106828_j18176301597601_1_alg».proof.Proof.Region1
import proofs.«106828_j18176301597601_1_alg».proof.Proof.Region2

set_option maxRecDepth 16384

noncomputable section

namespace Cert.Gcn.Walk

open Cert.KernelIdeal Cert.KernelIdeal.Gen Cert.KernelIdeal.Facts₀ Cert.KernelIdeal.Facts
open Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg) (c : Dev nD)

/-! ## At the first pipeline's entry -/

theorem W3_src : W3 m ρ c (Proc.devRef .tc main_v3) = (srcOf (m ((c : Thread nD τ).loc main_arg5))) := Stretches.pre_src (W0 m ρ c)
theorem W3_dst : W3 m ρ c (Proc.devRef .tc main_v6) = (dstOf (m ((c : Thread nD τ).loc main_arg5))) := Stretches.pre_dst (W0 m ρ c)
theorem W3_nrm : W3 m ρ c (Proc.devRef .tc main_v31) = (normOf (m ((c : Thread nD τ).loc main_arg5))) := Stretches.pre_nrm (W0 m ρ c)
theorem W3_a0 : W3 m ρ c (Proc.devRef .tc main_arg0) = (m ((c : Thread nD τ).loc main_arg0)) := Stretches.pre_a0 (W0 m ρ c)
theorem W3_a1 : W3 m ρ c (Proc.devRef .tc main_arg1) = (m ((c : Thread nD τ).loc main_arg1)) := Stretches.pre_a1 (W0 m ρ c)
theorem W3_a2 : W3 m ρ c (Proc.devRef .tc main_arg2) = (m ((c : Thread nD τ).loc main_arg2)) := Stretches.pre_a2 (W0 m ρ c)
theorem W3_a3 : W3 m ρ c (Proc.devRef .tc main_arg3) = (m ((c : Thread nD τ).loc main_arg3)) := Stretches.pre_a3 (W0 m ρ c)
theorem W3_a4 : W3 m ρ c (Proc.devRef .tc main_arg4) = (m ((c : Thread nD τ).loc main_arg4)) := Stretches.pre_a4 (W0 m ρ c)

/-! ## At the first pipeline's exit -/

theorem W4_prod : W4 m ρ c (Proc.devRef .tc main_v32) = (rowsTimes (m ((c : Thread nD τ).loc main_arg0)) (m ((c : Thread nD τ).loc main_arg1))) :=
  (W4_arr m ρ c 2).trans ((Region0.array_eq (V3 m ρ) c).trans (by
    rw [show V3 m ρ c main_arg0 = _ from W3_a0 m ρ c, show V3 m ρ c main_arg1 = _ from W3_a1 m ρ c]))
theorem W4_src : W4 m ρ c (Proc.devRef .tc main_v3) = (srcOf (m ((c : Thread nD τ).loc main_arg5))) :=
  (W4_of_ne m ρ c main_v3 (by decide)).trans (W3_src m ρ c)
theorem W4_dst : W4 m ρ c (Proc.devRef .tc main_v6) = (dstOf (m ((c : Thread nD τ).loc main_arg5))) :=
  (W4_of_ne m ρ c main_v6 (by decide)).trans (W3_dst m ρ c)
theorem W4_nrm : W4 m ρ c (Proc.devRef .tc main_v31) = (normOf (m ((c : Thread nD τ).loc main_arg5))) :=
  (W4_of_ne m ρ c main_v31 (by decide)).trans (W3_nrm m ρ c)
theorem W4_a2 : W4 m ρ c (Proc.devRef .tc main_arg2) = (m ((c : Thread nD τ).loc main_arg2)) :=
  (W4_of_ne m ρ c main_arg2 (by decide)).trans (W3_a2 m ρ c)
theorem W4_a3 : W4 m ρ c (Proc.devRef .tc main_arg3) = (m ((c : Thread nD τ).loc main_arg3)) :=
  (W4_of_ne m ρ c main_arg3 (by decide)).trans (W3_a3 m ρ c)
theorem W4_a4 : W4 m ρ c (Proc.devRef .tc main_arg4) = (m ((c : Thread nD τ).loc main_arg4)) :=
  (W4_of_ne m ρ c main_arg4 (by decide)).trans (W3_a4 m ρ c)

/-! ## At the second pipeline's entry -/

theorem W6_hidden : W6 m ρ c (Proc.devRef .tc main_v49) = (act128 (m ((c : Thread nD τ).loc main_arg2)) (conv128 (srcOf (m ((c : Thread nD τ).loc main_arg5))) (dstOf (m ((c : Thread nD τ).loc main_arg5))) (normOf (m ((c : Thread nD τ).loc main_arg5))) (rowsTimes (m ((c : Thread nD τ).loc main_arg0)) (m ((c : Thread nD τ).loc main_arg1))))) :=
  (Stretches.mid_hidden (W4 m ρ c)).trans (by
    rw [W4_a2 m ρ c, W4_src m ρ c, W4_dst m ρ c, W4_nrm m ρ c, W4_prod m ρ c])
theorem W6_src : W6 m ρ c (Proc.devRef .tc main_v3) = (srcOf (m ((c : Thread nD τ).loc main_arg5))) :=
  (Stretches.mid_src (W4 m ρ c)).trans (W4_src m ρ c)
theorem W6_dst : W6 m ρ c (Proc.devRef .tc main_v6) = (dstOf (m ((c : Thread nD τ).loc main_arg5))) :=
  (Stretches.mid_dst (W4 m ρ c)).trans (W4_dst m ρ c)
theorem W6_nrm : W6 m ρ c (Proc.devRef .tc main_v31) = (normOf (m ((c : Thread nD τ).loc main_arg5))) :=
  (Stretches.mid_nrm (W4 m ρ c)).trans (W4_nrm m ρ c)
theorem W6_a3 : W6 m ρ c (Proc.devRef .tc main_arg3) = (m ((c : Thread nD τ).loc main_arg3)) :=
  (Stretches.mid_a3 (W4 m ρ c)).trans (W4_a3 m ρ c)
theorem W6_a4 : W6 m ρ c (Proc.devRef .tc main_arg4) = (m ((c : Thread nD τ).loc main_arg4)) :=
  (Stretches.mid_a4 (W4 m ρ c)).trans (W4_a4 m ρ c)

/-! ## At the second pipeline's exit -/

theorem W7_prod : W7 m ρ c (Proc.devRef .tc main_v50) = (rowsTimes (act128 (m ((c : Thread nD τ).loc main_arg2)) (conv128 (srcOf (m ((c : Thread nD τ).loc main_arg5))) (dstOf (m ((c : Thread nD τ).loc main_arg5))) (normOf (m ((c : Thread nD τ).loc main_arg5))) (rowsTimes (m ((c : Thread nD τ).loc main_arg0)) (m ((c : Thread nD τ).loc main_arg1))))) (m ((c : Thread nD τ).loc main_arg3))) :=
  (W7_arr m ρ c 2).trans ((Region1.array_eq (V6 m ρ) c).trans (by
    rw [show V6 m ρ c main_v49 = _ from W6_hidden m ρ c, show V6 m ρ c main_arg3 = _ from W6_a3 m ρ c]))
theorem W7_src : W7 m ρ c (Proc.devRef .tc main_v3) = (srcOf (m ((c : Thread nD τ).loc main_arg5))) :=
  (W7_of_ne m ρ c main_v3 (by decide)).trans (W6_src m ρ c)
theorem W7_dst : W7 m ρ c (Proc.devRef .tc main_v6) = (dstOf (m ((c : Thread nD τ).loc main_arg5))) :=
  (W7_of_ne m ρ c main_v6 (by decide)).trans (W6_dst m ρ c)
theorem W7_nrm : W7 m ρ c (Proc.devRef .tc main_v31) = (normOf (m ((c : Thread nD τ).loc main_arg5))) :=
  (W7_of_ne m ρ c main_v31 (by decide)).trans (W6_nrm m ρ c)
theorem W7_a4 : W7 m ρ c (Proc.devRef .tc main_arg4) = (m ((c : Thread nD τ).loc main_arg4)) :=
  (W7_of_ne m ρ c main_arg4 (by decide)).trans (W6_a4 m ρ c)

/-! ## At the third pipeline's entry -/

theorem W8_conv : W8 m ρ c (Proc.devRef .tc main_v63) = (conv47 (srcOf (m ((c : Thread nD τ).loc main_arg5))) (dstOf (m ((c : Thread nD τ).loc main_arg5))) (normOf (m ((c : Thread nD τ).loc main_arg5))) (rowsTimes (act128 (m ((c : Thread nD τ).loc main_arg2)) (conv128 (srcOf (m ((c : Thread nD τ).loc main_arg5))) (dstOf (m ((c : Thread nD τ).loc main_arg5))) (normOf (m ((c : Thread nD τ).loc main_arg5))) (rowsTimes (m ((c : Thread nD τ).loc main_arg0)) (m ((c : Thread nD τ).loc main_arg1))))) (m ((c : Thread nD τ).loc main_arg3)))) :=
  (Stretches.post_conv (W7 m ρ c)).trans (by
    rw [W7_src m ρ c, W7_dst m ρ c, W7_nrm m ρ c, W7_prod m ρ c])
theorem W8_bias : W8 m ρ c (Proc.devRef .tc main_v64) = (shapeCast S1x47 (m ((c : Thread nD τ).loc main_arg4)) Facts₀.shapeCasts_S47_S1x47) :=
  (Stretches.post_bias (W7 m ρ c)).trans (by rw [W7_a4 m ρ c])

/-! ## At the return -/

/-- The result buffer at the last boundary is the kernel's composition of the arguments. -/
theorem W9_out : W9 m ρ c (Proc.devRef .tc main_v65) = (rowsLogSoftmax (conv47 (srcOf (m ((c : Thread nD τ).loc main_arg5))) (dstOf (m ((c : Thread nD τ).loc main_arg5))) (normOf (m ((c : Thread nD τ).loc main_arg5))) (rowsTimes (act128 (m ((c : Thread nD τ).loc main_arg2)) (conv128 (srcOf (m ((c : Thread nD τ).loc main_arg5))) (dstOf (m ((c : Thread nD τ).loc main_arg5))) (normOf (m ((c : Thread nD τ).loc main_arg5))) (rowsTimes (m ((c : Thread nD τ).loc main_arg0)) (m ((c : Thread nD τ).loc main_arg1))))) (m ((c : Thread nD τ).loc main_arg3)))) (shapeCast S1x47 (m ((c : Thread nD τ).loc main_arg4)) Facts₀.shapeCasts_S47_S1x47)) :=
  (W9_arr m ρ c 2).trans ((Region2.array_eq (V8 m ρ) c).trans (by
    rw [show V8 m ρ c main_v63 = _ from W8_conv m ρ c, show V8 m ρ c main_v64 = _ from W8_bias m ρ c]))

/-! ## The run -/

/-- Every weakly fair execution of the idealized kernel's program terminates, faultless, with its result at the
    kernel's composition of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v65) = (rowsLogSoftmax (conv47 (srcOf (m ((c : Thread nD τ).loc main_arg5))) (dstOf (m ((c : Thread nD τ).loc main_arg5))) (normOf (m ((c : Thread nD τ).loc main_arg5))) (rowsTimes (act128 (m ((c : Thread nD τ).loc main_arg2)) (conv128 (srcOf (m ((c : Thread nD τ).loc main_arg5))) (dstOf (m ((c : Thread nD τ).loc main_arg5))) (normOf (m ((c : Thread nD τ).loc main_arg5))) (rowsTimes (m ((c : Thread nD τ).loc main_arg0)) (m ((c : Thread nD τ).loc main_arg1))))) (m ((c : Thread nD τ).loc main_arg3)))) (shapeCast S1x47 (m ((c : Thread nD τ).loc main_arg4)) Facts₀.shapeCasts_S47_S1x47))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  Cert.KernelIdeal.Reads.run_reads m ρ (fun s h c =>
    ⟨(Cert.KernelIdeal.Reads.read_of m ρ h c main_v65 (by decide)).trans (W9_out m ρ c),
     (Cert.KernelIdeal.Reads.read_of m ρ h c main_arg0 (by decide)).trans (W9_main_arg0 m ρ c),
     (Cert.KernelIdeal.Reads.read_of m ρ h c main_arg1 (by decide)).trans (W9_main_arg1 m ρ c),
     (Cert.KernelIdeal.Reads.read_of m ρ h c main_arg2 (by decide)).trans (W9_main_arg2 m ρ c),
     (Cert.KernelIdeal.Reads.read_of m ρ h c main_arg3 (by decide)).trans (W9_main_arg3 m ρ c),
     (Cert.KernelIdeal.Reads.read_of m ρ h c main_arg4 (by decide)).trans (W9_main_arg4 m ρ c),
     (Cert.KernelIdeal.Reads.read_of m ρ h c main_arg5 (by decide)).trans (W9_main_arg5 m ρ c)⟩)

end Cert.Gcn.Walk

end
-- ==== Proof.RefRun.lean ====
/-
  The reference's run, read in four stretches.  The program is a straight line of 101 host operations; the buffer
  contents after a line of operations are a fold through the line, and a fold through a line cut in two is the
  fold through the second part from the contents the first part leaves.  After the first 43 operations the
  message sources, targets and weights are the named functions of the edge list and the float arguments are
  untouched; after the next 23 the hidden layer is the first convolution of x · W1 with its bias and relu; after
  the next 17 the second convolution of (hidden layer) · W2 is in place; the last 18 add the second bias and take
  the row-wise log-softmax (read in five short steps).  So every weakly fair execution ends with the result buffer at the reference's named
  composition of the arguments, and the arguments unchanged.
-/
import proofs.«106828_j18176301597601_1_alg».proof.Proof.RefSpec
import proofs.«106828_j18176301597601_1_alg».proof.Proof.RefRunPatched
import proofs.«106828_j18176301597601_1_alg».proof.Proof.LibTypedRef
import Idealize.ShloMosaic.Lib.Pipeline.Frame

set_option maxRecDepth 16384

noncomputable section

namespace Cert.GcnRef

open Cert.ReferenceIdeal Cert.ReferenceIdeal.Facts₀ Cert.ReferenceIdeal.Facts
open Idealize.ShloMosaic Idealize.ShloMosaic.TcCoe Idealize.SL.Sem Idealize.ShloMosaic.StableHlo
open Cert.ReferenceIdeal.ValueP (ops main_eq scopedRefs_eq scopedSems_eq ops_sub)

variable {F : FTy → Type} [FloatOps F]

/-- The fold through a line of operations is the fold through its tail from what its first `k` operations leave. -/
theorem after_cut (k : Nat) (l : List (HloOp τ sig (Elt F))) (V : Valuation τ sig (Elt F)) :
    after l V = after (l.drop k) (after (l.take k) V) := by
  rw [← StableHlo.after_append, List.take_append_drop]

variable (m : (ℓ : Loc nD τ sig) → Buf (Elt F) ℓ) (c : Dev nD)

/-- The contents after the first 43 operations (the graph's normalisation). -/
def S1 : Valuation τ sig (Elt F) := after ((ops (F := F)).take 43) (launchContents m c)
/-- The contents after the next 23 (the first layer). -/
def S2 : Valuation τ sig (Elt F) := after (((ops (F := F)).drop 43).take 23) (S1 m c)
/-- The contents after the next 17 (the second layer's propagation). -/
def S3 : Valuation τ sig (Elt F) := after ((((ops (F := F)).drop 43).drop 23).take 17) (S2 m c)

/-- Unfolds a stretch cut out of the literal list of operations, then reads the fold at one buffer. -/
macro "read_stretch" : tactic =>
  `(tactic| (simp only [ops, List.take_succ_cons, List.take_zero, List.drop_succ_cons, List.drop_zero]
             after_results_simp))

/-- Closes a stretch's equation: contents moved to a buffer's own type and back are the contents, and then the two
    sides are one term. -/
macro "close_stretch" : tactic =>
  `(tactic| ((try simp only [Cert.TypedRef.ofBuf_toBuf, Cert.TypedRef.toBuf_ofBuf]); rfl))

/-! ## After the first stretch -/

theorem S1_src : S1 m c (Proc.devRef .tc main_v3) = (Cert.Gcn.srcOf (m ((c.tc : Thread nD τ).loc main_arg5))) := by unfold S1; read_stretch; rfl
theorem S1_dst : S1 m c (Proc.devRef .tc main_v6) = (Cert.Gcn.dstOf (m ((c.tc : Thread nD τ).loc main_arg5))) := by unfold S1; read_stretch; rfl
theorem S1_nrm : S1 m c (Proc.devRef .tc main_v31) = (Cert.Gcn.normOf (m ((c.tc : Thread nD τ).loc main_arg5))) := by unfold S1; read_stretch; rfl
theorem S1_a0 : S1 m c (Proc.devRef .tc main_arg0) = (m ((c.tc : Thread nD τ).loc main_arg0)) := by unfold S1; read_stretch <;> rfl
theorem S1_a1 : S1 m c (Proc.devRef .tc main_arg1) = (m ((c.tc : Thread nD τ).loc main_arg1)) := by unfold S1; read_stretch <;> rfl
theorem S1_a2 : S1 m c (Proc.devRef .tc main_arg2) = (m ((c.tc : Thread nD τ).loc main_arg2)) := by unfold S1; read_stretch <;> rfl
theorem S1_a3 : S1 m c (Proc.devRef .tc main_arg3) = (m ((c.tc : Thread nD τ).loc main_arg3)) := by unfold S1; read_stretch <;> rfl
theorem S1_a4 : S1 m c (Proc.devRef .tc main_arg4) = (m ((c.tc : Thread nD τ).loc main_arg4)) := by unfold S1; read_stretch <;> rfl

/-! ## After the second stretch -/

theorem S2_hidden : S2 m c (Proc.devRef .tc main_v49) = (Cert.Gcn.act128 (m ((c.tc : Thread nD τ).loc main_arg2)) (Cert.Gcn.conv128 (Cert.Gcn.srcOf (m ((c.tc : Thread nD τ).loc main_arg5))) (Cert.Gcn.dstOf (m ((c.tc : Thread nD τ).loc main_arg5))) (Cert.Gcn.normOf (m ((c.tc : Thread nD τ).loc main_arg5))) (dot1 (m ((c.tc : Thread nD τ).loc main_arg0)) (m ((c.tc : Thread nD τ).loc main_arg1))))) := by
  unfold S2; read_stretch
  rw [S1_src, S1_dst, S1_nrm, S1_a0, S1_a1, S1_a2]
  close_stretch
theorem S2_src : S2 m c (Proc.devRef .tc main_v3) = (Cert.Gcn.srcOf (m ((c.tc : Thread nD τ).loc main_arg5))) := by unfold S2; read_stretch; exact S1_src m c
theorem S2_dst : S2 m c (Proc.devRef .tc main_v6) = (Cert.Gcn.dstOf (m ((c.tc : Thread nD τ).loc main_arg5))) := by unfold S2; read_stretch; exact S1_dst m c
theorem S2_nrm : S2 m c (Proc.devRef .tc main_v31) = (Cert.Gcn.normOf (m ((c.tc : Thread nD τ).loc main_arg5))) := by unfold S2; read_stretch; exact S1_nrm m c
theorem S2_a3 : S2 m c (Proc.devRef .tc main_arg3) = (m ((c.tc : Thread nD τ).loc main_arg3)) := by unfold S2; read_stretch; exact S1_a3 m c
theorem S2_a4 : S2 m c (Proc.devRef .tc main_arg4) = (m ((c.tc : Thread nD τ).loc main_arg4)) := by unfold S2; read_stretch; exact S1_a4 m c

/-! ## After the third stretch -/

theorem S3_conv : S3 m c (Proc.devRef .tc main_v63) = (Cert.Gcn.conv47 (Cert.Gcn.srcOf (m ((c.tc : Thread nD τ).loc main_arg5))) (Cert.Gcn.dstOf (m ((c.tc : Thread nD τ).loc main_arg5))) (Cert.Gcn.normOf (m ((c.tc : Thread nD τ).loc main_arg5))) (dot2 (Cert.Gcn.act128 (m ((c.tc : Thread nD τ).loc main_arg2)) (Cert.Gcn.conv128 (Cert.Gcn.srcOf (m ((c.tc : Thread nD τ).loc main_arg5))) (Cert.Gcn.dstOf (m ((c.tc : Thread nD τ).loc main_arg5))) (Cert.Gcn.normOf (m ((c.tc : Thread nD τ).loc main_arg5))) (dot1 (m ((c.tc : Thread nD τ).loc main_arg0)) (m ((c.tc : Thread nD τ).loc main_arg1))))) (m ((c.tc : Thread nD τ).loc main_arg3)))) := by
  unfold S3; read_stretch
  rw [S2_src, S2_dst, S2_nrm, S2_hidden, S2_a3]
  close_stretch
theorem S3_a4 : S3 m c (Proc.devRef .tc main_arg4) = (m ((c.tc : Thread nD τ).loc main_arg4)) := by unfold S3; read_stretch; exact S2_a4 m c

/-! ## The last stretch, in five steps: the bias, the rows' maxima, the shifted rows, the sums, the result -/

/-- The contents after the second bias is added (3 operations). -/
def S4 : Valuation τ sig (Elt F) := after ((List.drop 17 (List.drop 23 (List.drop 43 (ops (F := F))))).take 3) (S3 m c)
/-- After the rows' maxima (5 operations). -/
def S5 : Valuation τ sig (Elt F) := after ((List.drop 3 (List.drop 17 (List.drop 23 (List.drop 43 (ops (F := F)))))).take 5) (S4 m c)
/-- After the rows are shifted by their maxima (3 operations). -/
def S6 : Valuation τ sig (Elt F) := after ((List.drop 5 (List.drop 3 (List.drop 17 (List.drop 23 (List.drop 43 (ops (F := F))))))).take 3) (S5 m c)
/-- After the exponentials are summed along the rows (3 operations). -/
def S7 : Valuation τ sig (Elt F) := after ((List.drop 3 (List.drop 5 (List.drop 3 (List.drop 17 (List.drop 23 (List.drop 43 (ops (F := F)))))))).take 3) (S6 m c)

theorem S4_biased : S4 m c (Proc.devRef .tc main_v66) = (biasRows (m ((c.tc : Thread nD τ).loc main_arg4)) (Cert.Gcn.conv47 (Cert.Gcn.srcOf (m ((c.tc : Thread nD τ).loc main_arg5))) (Cert.Gcn.dstOf (m ((c.tc : Thread nD τ).loc main_arg5))) (Cert.Gcn.normOf (m ((c.tc : Thread nD τ).loc main_arg5))) (dot2 (Cert.Gcn.act128 (m ((c.tc : Thread nD τ).loc main_arg2)) (Cert.Gcn.conv128 (Cert.Gcn.srcOf (m ((c.tc : Thread nD τ).loc main_arg5))) (Cert.Gcn.dstOf (m ((c.tc : Thread nD τ).loc main_arg5))) (Cert.Gcn.normOf (m ((c.tc : Thread nD τ).loc main_arg5))) (dot1 (m ((c.tc : Thread nD τ).loc main_arg0)) (m ((c.tc : Thread nD τ).loc main_arg1))))) (m ((c.tc : Thread nD τ).loc main_arg3))))) := by
  unfold S4; read_stretch
  rw [S3_conv, S3_a4]
  close_stretch

theorem S5_biased : S5 m c (Proc.devRef .tc main_v66) = (biasRows (m ((c.tc : Thread nD τ).loc main_arg4)) (Cert.Gcn.conv47 (Cert.Gcn.srcOf (m ((c.tc : Thread nD τ).loc main_arg5))) (Cert.Gcn.dstOf (m ((c.tc : Thread nD τ).loc main_arg5))) (Cert.Gcn.normOf (m ((c.tc : Thread nD τ).loc main_arg5))) (dot2 (Cert.Gcn.act128 (m ((c.tc : Thread nD τ).loc main_arg2)) (Cert.Gcn.conv128 (Cert.Gcn.srcOf (m ((c.tc : Thread nD τ).loc main_arg5))) (Cert.Gcn.dstOf (m ((c.tc : Thread nD τ).loc main_arg5))) (Cert.Gcn.normOf (m ((c.tc : Thread nD τ).loc main_arg5))) (dot1 (m ((c.tc : Thread nD τ).loc main_arg0)) (m ((c.tc : Thread nD τ).loc main_arg1))))) (m ((c.tc : Thread nD τ).loc main_arg3))))) := by unfold S5; read_stretch; exact S4_biased m c
theorem S5_top : S5 m c (Proc.devRef .tc main_call2_v2) = rowMax (biasRows (m ((c.tc : Thread nD τ).loc main_arg4)) (Cert.Gcn.conv47 (Cert.Gcn.srcOf (m ((c.tc : Thread nD τ).loc main_arg5))) (Cert.Gcn.dstOf (m ((c.tc : Thread nD τ).loc main_arg5))) (Cert.Gcn.normOf (m ((c.tc : Thread nD τ).loc main_arg5))) (dot2 (Cert.Gcn.act128 (m ((c.tc : Thread nD τ).loc main_arg2)) (Cert.Gcn.conv128 (Cert.Gcn.srcOf (m ((c.tc : Thread nD τ).loc main_arg5))) (Cert.Gcn.dstOf (m ((c.tc : Thread nD τ).loc main_arg5))) (Cert.Gcn.normOf (m ((c.tc : Thread nD τ).loc main_arg5))) (dot1 (m ((c.tc : Thread nD τ).loc main_arg0)) (m ((c.tc : Thread nD τ).loc main_arg1))))) (m ((c.tc : Thread nD τ).loc main_arg3))))) := by
  unfold S5; read_stretch
  rw [S4_biased]
  close_stretch

theorem S6_shifted : S6 m c (Proc.devRef .tc main_call2_v5) = shifted (biasRows (m ((c.tc : Thread nD τ).loc main_arg4)) (Cert.Gcn.conv47 (Cert.Gcn.srcOf (m ((c.tc : Thread nD τ).loc main_arg5))) (Cert.Gcn.dstOf (m ((c.tc : Thread nD τ).loc main_arg5))) (Cert.Gcn.normOf (m ((c.tc : Thread nD τ).loc main_arg5))) (dot2 (Cert.Gcn.act128 (m ((c.tc : Thread nD τ).loc main_arg2)) (Cert.Gcn.conv128 (Cert.Gcn.srcOf (m ((c.tc : Thread nD τ).loc main_arg5))) (Cert.Gcn.dstOf (m ((c.tc : Thread nD τ).loc main_arg5))) (Cert.Gcn.normOf (m ((c.tc : Thread nD τ).loc main_arg5))) (dot1 (m ((c.tc : Thread nD τ).loc main_arg0)) (m ((c.tc : Thread nD τ).loc main_arg1))))) (m ((c.tc : Thread nD τ).loc main_arg3))))) := by
  unfold S6; read_stretch
  rw [S5_biased, S5_top]
  close_stretch

theorem S7_shifted : S7 m c (Proc.devRef .tc main_call2_v5) = shifted (biasRows (m ((c.tc : Thread nD τ).loc main_arg4)) (Cert.Gcn.conv47 (Cert.Gcn.srcOf (m ((c.tc : Thread nD τ).loc main_arg5))) (Cert.Gcn.dstOf (m ((c.tc : Thread nD τ).loc main_arg5))) (Cert.Gcn.normOf (m ((c.tc : Thread nD τ).loc main_arg5))) (dot2 (Cert.Gcn.act128 (m ((c.tc : Thread nD τ).loc main_arg2)) (Cert.Gcn.conv128 (Cert.Gcn.srcOf (m ((c.tc : Thread nD τ).loc main_arg5))) (Cert.Gcn.dstOf (m ((c.tc : Thread nD τ).loc main_arg5))) (Cert.Gcn.normOf (m ((c.tc : Thread nD τ).loc main_arg5))) (dot1 (m ((c.tc : Thread nD τ).loc main_arg0)) (m ((c.tc : Thread nD τ).loc main_arg1))))) (m ((c.tc : Thread nD τ).loc main_arg3))))) := by unfold S7; read_stretch; exact S6_shifted m c
theorem S7_sum : S7 m c (Proc.devRef .tc main_call2_v7)
    = Host.reduceAdd (Host.exp (shifted (biasRows (m ((c.tc : Thread nD τ).loc main_arg4)) (Cert.Gcn.conv47 (Cert.Gcn.srcOf (m ((c.tc : Thread nD τ).loc main_arg5))) (Cert.Gcn.dstOf (m ((c.tc : Thread nD τ).loc main_arg5))) (Cert.Gcn.normOf (m ((c.tc : Thread nD τ).loc main_arg5))) (dot2 (Cert.Gcn.act128 (m ((c.tc : Thread nD τ).loc main_arg2)) (Cert.Gcn.conv128 (Cert.Gcn.srcOf (m ((c.tc : Thread nD τ).loc main_arg5))) (Cert.Gcn.dstOf (m ((c.tc : Thread nD τ).loc main_arg5))) (Cert.Gcn.normOf (m ((c.tc : Thread nD τ).loc main_arg5))) (dot1 (m ((c.tc : Thread nD τ).loc main_arg0)) (m ((c.tc : Thread nD τ).loc main_arg1))))) (m ((c.tc : Thread nD τ).loc main_arg3))))))) (constant S_ .f32 0x00000000#32) reducesTo_S50000x47_S50000_d1 h_S_ := by
  unfold S7; read_stretch
  rw [S6_shifted]
  close_stretch

/-- The result buffer after the whole line is the reference's composition of the arguments. -/
theorem value : after (ops (F := F)) (launchContents m c) (Proc.devRef .tc main_v67)
    = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_cut 43 ops, after_cut 23 (List.drop 43 ops), after_cut 17 (List.drop 23 (List.drop 43 ops)),
    after_cut 3 (List.drop 17 (List.drop 23 (List.drop 43 (ops (F := F))))), after_cut 5 (List.drop 3 (List.drop 17 (List.drop 23 (List.drop 43 (ops (F := F)))))), after_cut 3 (List.drop 5 (List.drop 3 (List.drop 17 (List.drop 23 (List.drop 43 (ops (F := F))))))), after_cut 3 (List.drop 3 (List.drop 5 (List.drop 3 (List.drop 17 (List.drop 23 (List.drop 43 (ops (F := F))))))))]
  show after (List.drop 3 (List.drop 3 (List.drop 5 (List.drop 3 (List.drop 17 (List.drop 23 (List.drop 43 (ops (F := F))))))))) (S7 m c) (Proc.devRef .tc main_v67) = _
  read_stretch
  rw [S7_shifted, S7_sum]
  close_stretch

set_option maxHeartbeats 40400000 in
/-- On every device, from any memory with zero counters: every weakly fair execution of the reference terminates
    with its result at the named composition of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.GcnRef

end
-- ==== Proof.RowsReference.lean ====
/-
  The reference's last two stages read at one entry.  The bias, a vector made a one-row array and broadcast over
  the rows, is added to every row; then every row's largest entry — a reduction with a maximum body from the bottom
  word, joined once more with the bottom word — is subtracted, and the logarithm of the row's sum of exponentials
  of the shifted entries is subtracted.  Read at row `p`, lane `u` it is the log-softmax of the biased row `p` at
  `u`: each broadcast reads its operand at the coordinates it keeps, the maximum reduction is the fold of `max` over
  the row from its initial value, the sum reduction is the initial value, zero, plus the finite sum over the row.
-/
import proofs.«106828_j18176301597601_1_alg».proof.Proof.RefSpec
import proofs.«106828_j18176301597601_1_alg».proof.Proof.RowLogSoftmax
import proofs.«106828_j18176301597601_1_alg».proof.Proof.LibRowMax
import Idealize.ShloMosaic.Lib.Pipeline.Value
import Idealize.ShloMosaic.Lib.ValueIdx
import Idealize.ShloMosaic.PureOps.Ideal.Laws

noncomputable section

open scoped BigOperators

namespace Cert.GcnRef

open Cert.ReferenceIdeal Cert.ReferenceIdeal.Facts₀ Cert.ReferenceIdeal.Facts Idealize.ShloMosaic
open Idealize.ShloMosaic.ValueIdx

section General
variable {α : Type}

/-- A vector made a one-row array and that row broadcast over `a` rows reads, at `(p, k)`, the vector at `k`. -/
theorem rowBcast_apply {a b : ℕ} (v : (⟨1, ![b]⟩ : Shape).Idx → α)
    (h1 : (⟨1, ![b]⟩ : Shape).BroadcastsInDim ⟨2, ![1, b]⟩ (![1] : Fin 1 → Fin (⟨2, ![1, b]⟩ : Shape).rank))
    (h2 : (⟨2, ![1, b]⟩ : Shape).BroadcastsInDim ⟨2, ![a, b]⟩ (![0, 1] : Fin 2 → Fin (⟨2, ![a, b]⟩ : Shape).rank))
    (p : Fin a) (k : Fin b) :
    broadcastInDim ⟨2, ![a, b]⟩ ![0, 1] h2 (broadcastInDim ⟨2, ![1, b]⟩ ![1] h1 v) (ix2 p k) = v (ix1 k) := by
  refine (broadcastInDim_apply _ h2 _ (ix2 p k) (ix2 (0 : Fin 1) k) fun ax => ?_).trans
    (broadcastInDim_apply _ h1 v (ix2 (0 : Fin 1) k) (ix1 k) fun ax => ?_)
  · match ax with
    | ⟨0, _⟩ => rfl
    | ⟨1, _⟩ =>
      show k.val = if b = 1 then 0 else k.val
      split
      · have := k.isLt; omega
      · rfl
  · match ax with
    | ⟨0, _⟩ =>
      show k.val = if b = 1 then 0 else k.val
      split
      · have := k.isLt; omega
      · rfl

/-- A vector of length `a` made an `a × 1` column reads, at `(p, 0)`, the vector at `p`. -/
theorem colBcast1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (z : Fin 1) : broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- An `a × 1` column broadcast over `b` lanes reads, at `(p, c)`, the column at `p`. -/
theorem colBcast2_apply {a b : ℕ} (w : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h w (ix2 p c) = w (ix2 p (0 : Fin 1)) := by
  refine broadcastInDim_apply _ h w (ix2 p c) (ix2 p (0 : Fin 1)) fun ax => ?_
  match ax with
  | ⟨0, _⟩ =>
    show p.val = if a = 1 then 0 else p.val
    split
    · have := p.isLt; omega
    · rfl
  | ⟨1, _⟩ => rfl

end General

/-- At the extended reals a reduction with a maximum body over the last axis of an `a × b` array is, at `p`, the fold
    of `max` from the initial value over the entries of row `p`. -/
theorem hostMax2_apply {a b : ℕ} {u : Shape} (x : FVec Ideal ⟨2, ![a, b]⟩ .f32) (init : FVec Ideal u .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  refine (Host.reduce_eq_fold_single (FloatOps.maximumf (F := Ideal) (φ := .f32)) x init h' h hu (ix1 p)).trans ?_
  show (Finset.univ : Finset (Fin b)).fold max (init (Shape.Idx.first hu)) (fun k => x (h.lift (ix1 p) k)) = _
  refine congrArg (fun f => Finset.fold max (init (Shape.Idx.first hu)) f (Finset.univ : Finset (Fin b)))
    (funext fun k => congrArg x (funext fun d => Fin.ext ?_))
  match d with
  | ⟨0, _⟩ => rfl
  | ⟨1, _⟩ => rfl

/-- At the extended reals a sum reduction over the last axis of an `a × b` array is, at `p`, the initial value plus the
    finite sum of the entries of row `p`. -/
theorem hostSum2_apply {a b : ℕ} {u : Shape} (x : FVec Ideal ⟨2, ![a, b]⟩ .f32) (init : FVec Ideal u .f32)
    (h' : (⟨2, ![a, b]⟩ : Shape).ReducesTo [1] ⟨1, ![a]⟩) (hu : 0 < u.numel) (p : Fin a) :
    Host.reduceAdd (F := Ideal) x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  refine (Ideal.hostReduceAdd_single h' h x (init (Shape.Idx.first hu)) (ix1 p)).trans ?_
  show init (Shape.Idx.first hu) + ∑ k : Fin b, x (h.lift (ix1 p) k) = _
  refine congrArg (fun t : EReal => init (Shape.Idx.first hu) + t)
    (Finset.sum_congr rfl fun k _ => congrArg x (funext fun d => Fin.ext ?_))
  match d with
  | ⟨0, _⟩ => rfl
  | ⟨1, _⟩ => rfl

/-- An `a × b` array plus a vector made a one-row array and broadcast over the rows reads, at `(p, k)`, the entry
    plus the vector at `k`. -/
theorem addRowBcast_apply {a b : ℕ} (z : FVec Ideal ⟨2, ![a, b]⟩ .f32) (v : FVec Ideal ⟨1, ![b]⟩ .f32)
    (h1 : (⟨1, ![b]⟩ : Shape).BroadcastsInDim ⟨2, ![1, b]⟩ (![1] : Fin 1 → Fin (⟨2, ![1, b]⟩ : Shape).rank))
    (h2 : (⟨2, ![1, b]⟩ : Shape).BroadcastsInDim ⟨2, ![a, b]⟩ (![0, 1] : Fin 2 → Fin (⟨2, ![a, b]⟩ : Shape).rank))
    (p : Fin a) (k : Fin b) :
    addf z (broadcastInDim ⟨2, ![a, b]⟩ ![0, 1] h2 (broadcastInDim ⟨2, ![1, b]⟩ ![1] h1 v)) (ix2 p k)
      = z (ix2 p k) + v (ix1 k) :=
  congrArg (fun t : EReal => z (ix2 p k) + t) (rowBcast_apply v h1 h2 p k)

/-- An `a × b` array minus a vector of length `a` made a column and broadcast over the lanes reads, at `(p, k)`, the
    entry minus the vector at `p`. -/
theorem subColBcast_apply {a b : ℕ} (y : FVec Ideal ⟨2, ![a, b]⟩ .f32) (m : FVec Ideal ⟨1, ![a]⟩ .f32)
    (hc1 : (⟨1, ![a]⟩ : Shape).BroadcastsInDim ⟨2, ![a, 1]⟩ (![0] : Fin 1 → Fin (⟨2, ![a, 1]⟩ : Shape).rank))
    (hc2 : (⟨2, ![a, 1]⟩ : Shape).BroadcastsInDim ⟨2, ![a, b]⟩ (![0, 1] : Fin 2 → Fin (⟨2, ![a, b]⟩ : Shape).rank))
    (p : Fin a) (k : Fin b) :
    subf y (broadcastInDim ⟨2, ![a, b]⟩ ![0, 1] hc2 (broadcastInDim ⟨2, ![a, 1]⟩ ![0] hc1 m)) (ix2 p k)
      = y (ix2 p k) - m (ix1 p) :=
  congrArg (fun t : EReal => y (ix2 p k) - t) ((colBcast2_apply _ hc2 p k).trans (colBcast1_apply m hc1 p (0 : Fin 1)))

/-- The maximum reduction of an `a × b` array from the word `w`, joined once more with `w` broadcast to every row, is
    at `p` the fold of `max` from `w`'s value over row `p`: the fold is at least its starting value. -/
theorem joinedMax_apply {a b : ℕ} (w : BitVec 32) (x : FVec Ideal ⟨2, ![a, b]⟩ .f32)
    (hs : (⟨0, ![]⟩ : Shape).BroadcastsInDim ⟨1, ![a]⟩ (![] : Fin 0 → Fin (⟨1, ![a]⟩ : Shape).rank))
    (h' : (⟨2, ![a, b]⟩ : Shape).ReducesTo [1] ⟨1, ![a]⟩) (hu : 0 < (⟨0, ![]⟩ : Shape).numel) (p : Fin a) :
    maximumf (broadcastInDim ⟨1, ![a]⟩ ![] hs (constant (F := Ideal) ⟨0, ![]⟩ .f32 w))
        (Host.reduce (FloatOps.maximumf (F := Ideal) (φ := .f32)) x (constant (F := Ideal) ⟨0, ![]⟩ .f32 w) h' hu) (ix1 p)
      = (Finset.univ : Finset (Fin b)).fold max (Ideal.ofBits .f32 w) (fun k => x (ix2 p k)) := by
  have hf : Host.reduce (FloatOps.maximumf (F := Ideal) (φ := .f32)) x (constant (F := Ideal) ⟨0, ![]⟩ .f32 w) h' hu (ix1 p)
      = (Finset.univ : Finset (Fin b)).fold max (Ideal.ofBits .f32 w) (fun k => x (ix2 p k)) :=
    hostMax2_apply x _ h' hu p
  show max (Ideal.ofBits .f32 w)
      (Host.reduce (FloatOps.maximumf (F := Ideal) (φ := .f32)) x (constant (F := Ideal) ⟨0, ![]⟩ .f32 w) h' hu (ix1 p)) = _
  rw [hf]
  exact max_eq_right ((Finset.le_fold_max _).mpr (Or.inl le_rfl))

/-- The sum reduction of an `a × b` array from the word `w` is at `p` the value of `w` plus the finite sum of row `p`. -/
theorem hostSum2_const_apply {a b : ℕ} (x : FVec Ideal ⟨2, ![a, b]⟩ .f32) (w : BitVec 32)
    (h' : (⟨2, ![a, b]⟩ : Shape).ReducesTo [1] ⟨1, ![a]⟩) (hu : 0 < (⟨0, ![]⟩ : Shape).numel) (p : Fin a) :
    Host.reduceAdd (F := Ideal) x (constant (F := Ideal) ⟨0, ![]⟩ .f32 w) h' hu (ix1 p)
      = Ideal.ofBits .f32 w + ∑ k : Fin b, x (ix2 p k) :=
  hostSum2_apply x _ h' hu p

/-- The logarithm of the sum reduction from the zero word, the sum made a column first and the logarithm broadcast
    over the lanes, reads at `(p, c)` the logarithm of the finite sum of row `p`. -/
theorem logSumCol_apply {a b : ℕ} (e : FVec Ideal ⟨2, ![a, b]⟩ .f32)
    (hc1 : (⟨1, ![a]⟩ : Shape).BroadcastsInDim ⟨2, ![a, 1]⟩ (![0] : Fin 1 → Fin (⟨2, ![a, 1]⟩ : Shape).rank))
    (hc2 : (⟨2, ![a, 1]⟩ : Shape).BroadcastsInDim ⟨2, ![a, b]⟩ (![0, 1] : Fin 2 → Fin (⟨2, ![a, b]⟩ : Shape).rank))
    (h' : (⟨2, ![a, b]⟩ : Shape).ReducesTo [1] ⟨1, ![a]⟩) (hu : 0 < (⟨0, ![]⟩ : Shape).numel) (p : Fin a) (c : Fin b) :
    broadcastInDim ⟨2, ![a, b]⟩ ![0, 1] hc2 (Host.log (broadcastInDim ⟨2, ![a, 1]⟩ ![0] hc1
        (Host.reduceAdd (F := Ideal) e (constant (F := Ideal) ⟨0, ![]⟩ .f32 0x00000000#32) h' hu))) (ix2 p c)
      = Ideal.log (∑ k : Fin b, e (ix2 p k)) := by
  have hsum := hostSum2_const_apply e 0x00000000#32 h' hu p
  rw [Ideal.ofBits_zero_f32, zero_add] at hsum
  exact (colBcast2_apply _ hc2 p c).trans (congrArg Ideal.log ((colBcast1_apply _ hc1 p (0 : Fin 1)).trans hsum))

/-- The biased array at `(p, k)`: the entry plus the bias at `k`. -/
theorem biasRows_apply (b : (⟨S47, .f32⟩ : BufTy).Contents (Elt Ideal)) (z : (⟨S50000x47, .f32⟩ : BufTy).Contents (Elt Ideal))
    (p : Fin 50000) (k : Fin 47) : biasRows (F := Ideal) b z (ix2 p k) = z (ix2 p k) + b (ix1 k) :=
  addRowBcast_apply z b _ _ p k

/-- The row maximum at `p`: the largest entry of row `p`. -/
theorem rowMax_apply (y : (⟨S50000x47, .f32⟩ : BufTy).Contents (Elt Ideal)) (p : Fin 50000) :
    rowMax (F := Ideal) y (ix1 p) = Cert.Gcn.rowTop (fun k : Fin 47 => y (ix2 p k)) :=
  joinedMax_apply 0xFF800000#32 y _ _ _ p

/-- The shifted array at `(p, k)`: the entry minus the largest entry of its row. -/
theorem shifted_apply (y : (⟨S50000x47, .f32⟩ : BufTy).Contents (Elt Ideal)) (p : Fin 50000) (k : Fin 47) :
    shifted (F := Ideal) y (ix2 p k) = y (ix2 p k) - Cert.Gcn.rowTop (fun c : Fin 47 => y (ix2 p c)) :=
  (subColBcast_apply y (rowMax (F := Ideal) y) _ _ p k).trans
    (congrArg (fun t : EReal => y (ix2 p k) - t) (rowMax_apply y p))

/-- The row-wise log-softmax at `(p, u)`: the log-softmax of row `p` at `u`. -/
theorem logSoftmaxRows_apply (y : (⟨S50000x47, .f32⟩ : BufTy).Contents (Elt Ideal)) (p : Fin 50000) (u : Fin 47) :
    logSoftmaxRows (F := Ideal) y (ix2 p u) = Cert.Gcn.lsmRow (fun k : Fin 47 => y (ix2 p k)) u := by
  refine (congrArg₂ (fun s t : EReal => s - t) (shifted_apply y p u)
    (logSumCol_apply (Host.exp (shifted (F := Ideal) y)) _ _ _ _ p u)).trans ?_
  exact congrArg
    (fun s : EReal => (y (ix2 p u) - Cert.Gcn.rowTop (fun c : Fin 47 => y (ix2 p c))) - Ideal.log s)
    (Finset.sum_congr rfl fun k _ => congrArg Ideal.exp (shifted_apply y p k))

/-- The reference's log-softmax of the biased array at row `p`, lane `u`: the log-softmax, at `u`, of row `p` of the
    array plus the bias. -/
theorem ref_rows_apply (z : (⟨S50000x47, .f32⟩ : BufTy).Contents (Elt Ideal)) (b : (⟨S47, .f32⟩ : BufTy).Contents (Elt Ideal))
    (p : Fin 50000) (u : Fin 47) :
    logSoftmaxRows (F := Ideal) (biasRows (F := Ideal) b z) (ix2 p u)
      = Cert.Gcn.lsmRow (fun k : Fin 47 => z (ix2 p k) + b (ix1 k)) u :=
  (logSoftmaxRows_apply (biasRows (F := Ideal) b z) p u).trans
    (congrArg (fun r : Fin 47 → EReal => Cert.Gcn.lsmRow r u) (funext fun k => biasRows_apply b z p k))

end Cert.GcnRef

end
-- ==== Proof.Bridge.lean ====
/-
  The two compositions are one function of the arguments.  They share the graph-convolution glue word for
  word, so it is enough that what goes into it agrees: each of the reference's dense products is the finite sum
  Σ_k lhs(p, k) · rhs(k, u) that the kernels' row blocks tile, and the reference's bias-add followed by the
  row-wise log-softmax reads, at every entry, the log-softmax of the row with the bias added — which is what the
  last kernel leaves, its bias laid out as one row.
-/
import proofs.«106828_j18176301597601_1_alg».proof.Proof.RefSpec
import proofs.«106828_j18176301597601_1_alg».proof.Proof.DenseProducts
import proofs.«106828_j18176301597601_1_alg».proof.Proof.RowsSpec
import proofs.«106828_j18176301597601_1_alg».proof.Proof.RowsReference
import Idealize.ShloMosaic.Lib.ValueLayout

noncomputable section

namespace Cert.Gcn

open Idealize.ShloMosaic Idealize.ShloMosaic.ValueIdx

/-- The reference's composition of the arguments is the kernel's. -/
theorem ref_is_kernel
    (x : (⟨Cert.ReferenceIdeal.S50000x500, .f32⟩ : BufTy).Contents (Elt Ideal))
    (w1 : (⟨Cert.ReferenceIdeal.S500x128, .f32⟩ : BufTy).Contents (Elt Ideal))
    (b1 : (⟨Cert.ReferenceIdeal.S128, .f32⟩ : BufTy).Contents (Elt Ideal))
    (w2 : (⟨Cert.ReferenceIdeal.S128x47, .f32⟩ : BufTy).Contents (Elt Ideal))
    (b2 : (⟨Cert.ReferenceIdeal.S47, .f32⟩ : BufTy).Contents (Elt Ideal))
    (e : (⟨Cert.ReferenceIdeal.S2x800000, .i32⟩ : BufTy).Contents (Elt Ideal)) :
    Cert.GcnRef.refOut (F := Ideal) x w1 b1 w2 b2 e
      = rowsLogSoftmax
          (conv47 (F := Ideal) (srcOf e) (dstOf e) (normOf e)
            (rowsTimes (act128 (F := Ideal) b1 (conv128 (F := Ideal) (srcOf e) (dstOf e) (normOf e) (rowsTimes x w1))) w2))
          (shapeCast Cert.KernelIdeal.S1x47 b2 Cert.KernelIdeal.Facts₀.shapeCasts_S47_S1x47) := by
  unfold Cert.GcnRef.refOut
  rw [dot1_eq, dot2_eq]
  funext i
  obtain ⟨p, u, rfl⟩ : ∃ (p : Fin 50000) (u : Fin 47), i = ix2 p u := ⟨i 0, i 1, eq_ix2 i⟩
  rw [Cert.GcnRef.ref_rows_apply, rowsLogSoftmax_apply]
  refine congrArg (fun r : Fin 47 → EReal => lsmRow r u) (funext fun k => congrArg (_ + ·) ?_)
  exact (shapeCast_a_1a_apply b2 _ (0 : Fin 1) k).symm

end Cert.Gcn

end
-- ==== Proof.lean ====
/-
  A two-layer graph convolution with a log-softmax head, a Pallas program against its jnp reference, equal over
  the extended reals.  Both programs build the same normalised graph from the edge list (self-loops added,
  in-degrees counted, every message weighted by deg^(-1/2) at its source times deg^(-1/2) at its target) and run
  the same two propagations through it: gather the rows of a dense transform at the sources, scale, add into the
  targets.  They differ in three places.  The dense transforms x · W1 and relu(…) · W2 are matrix products of
  row blocks on the kernel's side (2000 and 5000 rows per grid point, the operands cast to a narrower format that
  the extended reals do not see) and one general dot product each on the reference's; both are the finite sum
  Σ_k lhs(p, k) · rhs(k, u) at every entry, the blocks tiling the rows.  And the last stage — add the second bias,
  take every row's log-softmax in the shifted form (row − max − log Σ exp(row − max)) — is one kernel over 5000-row
  blocks against the reference's outlined function over the whole array; a row's result depends on that row
  alone, the lane maximum and the host's max-reduction are both the fold of max from minus infinity (which the
  reference joins with minus infinity once more, changing nothing), the lane sum and the host's sum are both the
  finite sum, and exponential and logarithm are the same functions on either side.  No law here needs the inputs
  finite: sums are only regrouped, nothing is distributed or cancelled.
  The frames of the two kernel programs are the generated ones; the reference's frame is its run with the value
  forgotten; the ideal pass rewrote nothing, so there is nothing to preserve.
-/
import proofs.«106828_j18176301597601_1_alg».proof.Defs
import proofs.«106828_j18176301597601_1_alg».proof.Proof.Gen.Kernel
import proofs.«106828_j18176301597601_1_alg».proof.Proof.Gen.Kernel.Skeleton
import proofs.«106828_j18176301597601_1_alg».proof.Proof.Gen.Kernel.Launch
import proofs.«106828_j18176301597601_1_alg».proof.Proof.Gen.Kernel.Points
import proofs.«106828_j18176301597601_1_alg».proof.Proof.Gen.Kernel.Frame
import proofs.«106828_j18176301597601_1_alg».proof.Proof.Gen.KernelIdeal
import proofs.«106828_j18176301597601_1_alg».proof.Proof.Gen.KernelIdeal.Skeleton
import proofs.«106828_j18176301597601_1_alg».proof.Proof.Gen.KernelIdeal.Launch
import proofs.«106828_j18176301597601_1_alg».proof.Proof.Gen.KernelIdeal.Points
import proofs.«106828_j18176301597601_1_alg».proof.Proof.Gen.KernelIdeal.Frame
import proofs.«106828_j18176301597601_1_alg».proof.Proof.Gen.ReferenceIdeal
import proofs.«106828_j18176301597601_1_alg».proof.Proof.Gen.Pre_finite_inputs
import proofs.«106828_j18176301597601_1_alg».proof.Proof.KernelWalk
import proofs.«106828_j18176301597601_1_alg».proof.Proof.RefRun
import proofs.«106828_j18176301597601_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.GcnRef.run (F := Ideal) m ρ)

/-- The ideal pass rewrote no operation. -/
theorem preserves : Cert.preserves_Kernel_KernelIdeal := trivial

/-- From memories that agree on the arguments the kernel's program ends with its result at the kernel's
    composition of the arguments and the reference at the reference's composition of the same arguments: one
    function. -/
theorem algebraic : Cert.algebraic_KernelIdeal_ReferenceIdeal := by
  intro m ρ m' ρ' _ hagree
  refine ⟨_, Cert.Gcn.Walk.run m ρ, ?_⟩
  refine (θ_run Cert.ReferenceIdeal.defs _ _).mono (fun _ h c => ⟨(h c).1.trans ?_, (h c).2⟩)
    (Cert.GcnRef.run (F := Ideal) m' ρ')
  obtain ⟨e0, e1, e2, e3, e4, e5⟩ := hagree c
  rw [e0, e1, e2, e3, e4, e5]
  exact Cert.Gcn.ref_is_kernel _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
